-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x1024x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1 : Shape := ⟨2, ![1024, 1]⟩

abbrev nBuf : Space → Nat
  | .hbm => 17
  | .vmem => 25
  | .smem => 0
  | _ => 0

abbrev bufTy : (tb : Table) → Fin (tcTables nBuf tb) → BufTy
  | .hbm, ⟨0, _⟩ => ⟨S16x1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S16x1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S16x1024x1024, .bf16⟩
  | .hbm, ⟨13, _⟩ => ⟨S16x1024x1024, .bf16⟩
  | .hbm, ⟨14, _⟩ => ⟨S16x1024x1024, .bf16⟩
  | .hbm, ⟨15, _⟩ => ⟨S16x1024x1024, .bf16⟩
  | .hbm, ⟨16, _⟩ => ⟨S16x1024x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .f32⟩
  | .local _ .vmem, ⟨24, _⟩ => ⟨S1x1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .bf16 = 32 ∨ (Rect.block (s := S16x1024x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S16x1024x1024.size a
  hwx0_6 : ∀ i : grid0.Coords, EltTy.bits .bf16 = 32 ∨ (Rect.block (s := S16x1024x1024) S1x512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S16x1024x1024.size a
  hwx0_7 : ∀ i : grid0.Coords, EltTy.bits .bf16 = 32 ∨ (Rect.block (s := S16x1024x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S16x1024x1024.size a
  hwx0_8 : ∀ i : grid0.Coords, EltTy.bits .bf16 = 32 ∨ (Rect.block (s := S16x1024x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S16x1024x1024.size a
  hwx0_9 : ∀ i : grid0.Coords, EltTy.bits .bf16 = 32 ∨ (Rect.block (s := S16x1024x1024) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S16x1024x1024.size a
  hwx1_0 : ∀ i : grid1.Coords, EltTy.bits .bf16 = 32 ∨ (Rect.block (s := S16x1024x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S16x1024x1024.size a
  hwx1_1 : ∀ i : grid1.Coords, EltTy.bits .bf16 = 32 ∨ (Rect.block (s := S16x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S16x1024x1024.size a
  hwx1_2 : ∀ i : grid1.Coords, EltTy.bits .bf16 = 32 ∨ (Rect.block (s := S16x1024x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S16x1024x1024.size a
  hwx1_3 : ∀ i : grid1.Coords, EltTy.bits .bf16 = 32 ∨ (Rect.block (s := S16x1024x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S16x1024x1024.size a
  hwx1_4 : ∀ i : grid1.Coords, EltTy.bits .f32 = 32 ∨ (Rect.block (s := S16x1024x1024) S1x1024x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_3) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_3) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S_ : Shape := ⟨0, ![]⟩
abbrev S16x1024 : Shape := ⟨2, ![16, 1024]⟩
abbrev S16x1024x1 : Shape := ⟨3, ![16, 1024, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .hbm, ⟨9, _⟩ => ⟨S16x1024x1024, .f32⟩
  | .hbm, ⟨10, _⟩ => ⟨S_, .f32⟩
  | .hbm, ⟨11, _⟩ => ⟨S_, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1024x1, .f32⟩
  | .hbm, ⟨20, _⟩ => ⟨S16x1024x1024, .f32⟩
  | .hbm, ⟨21, _⟩ => ⟨S16x1024x1024, .f32⟩
  | .hbm, ⟨22, _⟩ => ⟨S16x1024x1024, .f32⟩
  | .hbm, ⟨23, _⟩ => ⟨S_, .f32⟩
  | .hbm, ⟨24, _⟩ => ⟨S16x1024, .f32⟩
  | .hbm, ⟨25, _⟩ => ⟨S16x1024x1, .f32⟩
  | .hbm, ⟨26, _⟩ => ⟨S16x1024x1024, .f32⟩
  | .hbm, ⟨27, _⟩ => ⟨S16x1024x1024, .f32⟩
  | .hbm, ⟨28, _⟩ => ⟨S16x1024x1024, .f32⟩
  | .hbm, ⟨29, _⟩ => ⟨S1x1x1024, .f32⟩
  | .hbm, ⟨30, _⟩ => ⟨S16x1024x1024, .f32⟩
  | .hbm, ⟨31, _⟩ => ⟨S16x1024x1024, .f32⟩
  | .hbm, ⟨32, _⟩ => ⟨S16x1024x1024, .f32⟩
  | .hbm, ⟨33, _⟩ => ⟨S16x1024x1024, .f32⟩
  | .hbm, ⟨34, _⟩ => ⟨S_, .f32⟩
  | .hbm, ⟨35, _⟩ => ⟨S16x1024x1024, .f32⟩
  | .hbm, ⟨36, _⟩ => ⟨S16x1024x1024, .f32⟩
  | .hbm, ⟨37, _⟩ => ⟨S_, .f32⟩
  | .hbm, ⟨38, _⟩ => ⟨S16x1024x1024, .f32⟩
  | .hbm, ⟨39, _⟩ => ⟨S16x1024x1024, .f32⟩
  | .hbm, ⟨40, _⟩ => ⟨S16x1024x1024, .f32⟩
  | .hbm, ⟨41, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  dot_S16x1024x1024_S1024x1024_S16x1024x1024_2_0_01_1_n_n_wf : DotDims.WF S16x1024x1024 S1024x1024 S16x1024x1024 [2] [0] [0, 1] [1] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_0_01_1_n_n : DotDims S16x1024x1024 S1024x1024 S16x1024x1024 where
  lhsContracting := [2]
  rhsContracting := [0]
  lhsNonContracting := [0, 1]
  rhsNonContracting := [1]
  lhsBatch := []
  rhsBatch := []
  wf := dot_S16x1024x1024_S1024x1024_S16x1024x1024_2_0_01_1_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.Spec.lean ====
/-
  Attention whose weights are gated by a sigmoid, as ONE function of the six argument arrays.

  With x : [16, 1024, 1024], four square matrices Wq, Wk, Wv, Wm : [1024, 1024] and a bias bm : [1024]:
    q = x·Wq,  k = x·Wk,  v = x·Wv            (each row of x against a matrix: a sum over the model axis)
    g = logistic (x·Wm + bm)                   (the gate, one number per (batch, query, key) because the
                                                projection width equals the sequence length)
  and, batch by batch, for a query row s and a key row t,
    score s t  = (Σ_u q s u · k t u) · (1/32)  (the scale is 1/√1024, spelt as the float word of 1/32)
    rowMax s   = max (-∞) (max over t of score s t, from -∞)
    expo s t   = exp (score s t - rowMax s)
    denom s    = Σ_t expo s t
    weight s t = expo s t / denom s · g s t
    attend s u = Σ_t weight s t · v t u.
  Everything is over the extended reals; the two float words (the scale and -∞) are kept as words, since both
  programs spell the same ones, and division is the total division of the ideal arithmetic.
-/
import Idealize.ShloMosaic.PureOps.Ideal
import Idealize.ShloMosaic.Lib.ValueIdx

noncomputable section

namespace Cert.GatedAttention

open Idealize.ShloMosaic Idealize.ShloMosaic.ValueIdx

/-- A [16, 1024, 1024] array, a [1024, 1024] matrix and a [1024] vector of extended reals. -/
abbrev Arr3 := (⟨3, ![16, 1024, 1024]⟩ : Shape).Idx → EReal
abbrev Mat := (⟨2, ![1024, 1024]⟩ : Shape).Idx → EReal
abbrev Vec1 := (⟨1, ![1024]⟩ : Shape).Idx → EReal

/-- One row against a matrix: column `u` of the product is the sum over `d` of `row d · W (d, u)`. -/
def rowDot (row : Fin 1024 → EReal) (W : Mat) (u : Fin 1024) : EReal :=
  ∑ d : Fin 1024, row d * W (ix2 d u)

/-- The score scale 1/√1024 = 1/32, as the float word both the kernel's constant and this text spell. -/
def scale : EReal := Ideal.ofBits .f32 0x3D000000#32

/-- The float word of -∞, from which both programs start a row's maximum. -/
def negInf : EReal := Ideal.ofBits .f32 0xFF800000#32

section Batch

/-! One batch: `q k v g` are that batch's four [1024, 1024] matrices by coordinates. -/
variable (q k v g : Fin 1024 → Fin 1024 → EReal)

/-- Query row `s` against key row `t`, scaled. -/
def score (s t : Fin 1024) : EReal := (∑ u : Fin 1024, q s u * k t u) * scale

/-- The largest score of query row `s` (taken from -∞, and once more against -∞). -/
def rowMax (s : Fin 1024) : EReal :=
  max negInf ((Finset.univ : Finset (Fin 1024)).fold max negInf (fun t => score q k s t))

/-- The shifted exponential of a score. -/
def expo (s t : Fin 1024) : EReal := Ideal.exp (score q k s t - rowMax q k s)

/-- The normaliser of query row `s`. -/
def denom (s : Fin 1024) : EReal := ∑ t : Fin 1024, expo q k s t

/-- The softmax weight of key `t` for query `s`, times the gate. -/
def weight (s t : Fin 1024) : EReal := Ideal.div (expo q k s t) (denom q k s) * g s t

/-- The context: the gated weights of query row `s` against column `u` of the values. -/
def attend (s u : Fin 1024) : EReal := ∑ t : Fin 1024, weight q k g s t * v t u

end Batch

/-- A [16, 1024, 1024] array from its coordinate function. -/
def ofCoords (f : Fin 16 → Fin 1024 → Fin 1024 → EReal) : Arr3 :=
  fun i => f ⟨(i 0).val, (i 0).isLt⟩ ⟨(i 1).val, (i 1).isLt⟩ ⟨(i 2).val, (i 2).isLt⟩

theorem ofCoords_ix3 (f : Fin 16 → Fin 1024 → Fin 1024 → EReal) (b : Fin 16) (s u : Fin 1024) :
    ofCoords f (ix3 b s u) = f b s u := rfl

/-- Two [16, 1024, 1024] arrays that agree at every triple of coordinates are equal. -/
theorem arr3_ext {A B : Arr3} (h : ∀ (b : Fin 16) (s u : Fin 1024), A (ix3 b s u) = B (ix3 b s u)) : A = B := by
  funext i
  rw [eq_ix3 i]
  exact h _ _ _

/-- `x·W`: every row of every batch against the matrix. -/
def projection (x : Arr3) (W : Mat) : Arr3 :=
  ofCoords fun b s u => rowDot (fun d => x (ix3 b s d)) W u

/-- The gate `logistic (x·W + bias)`, the bias along the last axis. -/
def gate (x : Arr3) (W : Mat) (bias : Vec1) : Arr3 :=
  ofCoords fun b s u => Ideal.logistic (rowDot (fun d => x (ix3 b s d)) W u + bias (ix1 u))

/-- Gated attention of four [16, 1024, 1024] arrays, batch by batch. -/
def attention (Q K V G : Arr3) : Arr3 :=
  ofCoords fun b s u =>
    attend (fun s u => Q (ix3 b s u)) (fun t u => K (ix3 b t u)) (fun t u => V (ix3 b t u)) (fun s t => G (ix3 b s t)) s u

/-- The whole computation of the six arguments. -/
def result (x : Arr3) (Wq Wk Wv Wm : Mat) (bm : Vec1) : Arr3 :=
  attention (projection x Wq) (projection x Wk) (projection x Wv) (gate x Wm bm)

end Cert.GatedAttention

end
-- ==== Proof.KernelRun.lean ====
/-
  The kernel program's run with its result named.

  The program is a stretch of host operations (five changes of float format and one reshape), then the projection
  region, then the attention region. Every weakly fair execution from a memory with zero counters terminates
  without a fault; at the end every buffer the program does not scope holds the contents of the last boundary:
  the launch memory pushed through the host stretch, then each region's arrays replaced by what its pipeline
  leaves. Read at the result buffer this names the result; read at an argument it is the launch contents.
-/
import proofs.«134380_j56659208569094_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents there, and the six arguments as launched. -/
theorem run_named : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.ProjValue.lean ====
/-
  The projection region: from the array x : [16, 1024, 1024] and a matrix W : [1024, 1024] the region leaves x·W,
  every row of every batch against the matrix, and for the gate logistic (x·W + bias).

  The grid has 16 × 2 points; point (b, h) reads rows 512·h … 512·h + 511 of batch b as one [1, 512, 1024] tile,
  reads each matrix whole, and writes the same rows of each output. One tile's arithmetic is a [512, 1024] by
  [1024, 1024] product into a zero accumulator, read at (r, u) as the sum over d of tile (r, d) · W (d, u); the
  narrowing to the storage format is the identity on extended reals. The tiles of the 32 points cover each output.
-/
import proofs.«134380_j56659208569094_1_alg».proof.Proof.Gen.KernelIdeal.Frame
import proofs.«134380_j56659208569094_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.ProjValue

open Idealize.ShloMosaic Idealize.ShloMosaic.TcCoe Idealize.ShloMosaic.ValueIdx
open Cert.KernelIdeal Cert.KernelIdeal.Gen Cert.GatedAttention

/-! ## One block's arithmetic: a [512, 1024] tile times a [1024, 1024] matrix -/

/-- The contraction of a [512, 1024] left operand's axis 1 with a [1024, 1024] right operand's axis 0. -/
abbrev D := dot_S512x1024_S1024x1024_S512x1024_1_0_0_1_n_n

/-- At output index (r, u) and contraction index k the left operand is read at (r, k) ... -/
theorem lhs_row (i : S512x1024.Idx) (q : D.contr.Idx) : (D.lhsIdx i q 0).val = (i 0).val := by
  unfold DotDims.lhsIdx
  rw [dif_neg (show ¬(0 : Fin S512x1024.rank) ∈ D.lhsBatch by decide),
    dif_pos (show (0 : Fin S512x1024.rank) ∈ D.lhsNonContracting by decide)]
  rfl
theorem lhs_contr (i : S512x1024.Idx) (q : D.contr.Idx) : (D.lhsIdx i q 1).val = (q ⟨0, by decide⟩).val :=
  D.lhsIdx_val_of_single rfl i q
/-- ... and the right operand at (k, u). -/
theorem rhs_contr (i : S512x1024.Idx) (q : D.contr.Idx) : (D.rhsIdx i q 0).val = (q ⟨0, by decide⟩).val :=
  D.rhsIdx_val_of_single rfl i q
theorem rhs_col (i : S512x1024.Idx) (q : D.contr.Idx) : (D.rhsIdx i q 1).val = (i 1).val := by
  unfold DotDims.rhsIdx
  rw [dif_neg (show ¬(1 : Fin S1024x1024.rank) ∈ D.rhsBatch by decide),
    dif_pos (show (1 : Fin S1024x1024.rank) ∈ D.rhsNonContracting by decide)]
  rfl

/-- The product into a zero accumulator, at (r, u): the sum over d of A (r, d) · W (d, u). -/
theorem matmul_zero_at (A : FVec Ideal S512x1024 .bf16) (W : FVec Ideal S1024x1024 .bf16) (r : Fin 512) (u : Fin 1024) :
    matmul D none A W (constant S512x1024 .f32 0x00000000#32) (ix2 r u) = ∑ d : Fin 1024, A (ix2 r d) * W (ix2 d u) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 r u) ((contrEquiv1 D 1024 rfl rfl).symm k) = ix2 r k := funext fun a => Fin.ext (by
    match a with
    | ⟨0, _⟩ => exact lhs_row _ _
    | ⟨1, _⟩ => exact (lhs_contr _ _).trans hk)
  have er : D.rhsIdx (ix2 r u) ((contrEquiv1 D 1024 rfl rfl).symm k) = ix2 k u := funext fun a => Fin.ext (by
    match a with
    | ⟨0, _⟩ => exact (rhs_contr _ _).trans hk
    | ⟨1, _⟩ => exact rhs_col _ _)
  rw [el, er]

/-! ## The four stored blocks at an index -/

/-- A [1, 512, 1024] tile against a matrix, cast back to [1, 512, 1024]: at (z, r, u), row r of the tile against column u. -/
theorem tile_proj_at (x0 : FVec Ideal S1x512x1024 .bf16) (W : FVec Ideal S1024x1024 .bf16) (r : Fin 512) (u : Fin 1024) :
    matmul D none (k0_pay3 (F := Ideal) x0) W (constant S512x1024 .f32 0x00000000#32) (ix2 r u)
      = rowDot (fun d => x0 (ix3 (0 : Fin 1) r d)) W u := by
  rw [matmul_zero_at]
  unfold rowDot k0_pay3
  refine Finset.sum_congr rfl fun d _ => ?_
  rw [shapeCast_1ab_ab_apply]

theorem pay_q (x0 : FVec Ideal S1x512x1024 .bf16) (W : FVec Ideal S1024x1024 .bf16) (z : Fin 1) (r : Fin 512) (u : Fin 1024) :
    k0_pay5 (F := Ideal) x0 W (ix3 z r u) = rowDot (fun d => x0 (ix3 (0 : Fin 1) r d)) W u := by
  unfold k0_pay5
  rw [shapeCast_ab_1ab_apply, truncf_apply, shapeCast_self, tile_proj_at]

/-- The payload at an index given whole, split into its coordinates. -/
theorem pay_q_idx (x0 : FVec Ideal S1x512x1024 .bf16) (W : FVec Ideal S1024x1024 .bf16) (j : S1x512x1024.Idx) :
    k0_pay5 (F := Ideal) x0 W j = rowDot (fun d => x0 (ix3 (0 : Fin 1) (j 1) d)) W (j 2) :=
  (congrArg (k0_pay5 (F := Ideal) x0 W) (eq_ix3 j)).trans (pay_q x0 W (j 0) (j 1) (j 2))

/-! ## Where each grid point reads and writes -/

theorem zero3 : (![0, 0, 0] : Fin 3 → Nat) = fun _ => 0 := funext fun a => by fin_cases a <;> rfl
theorem zero2 : (![0, 0] : Fin 2 → Nat) = fun _ => 0 := funext fun a => by fin_cases a <;> rfl

/-- At every grid point the tile of x that is read sits where the output tile is written, the matrix is read whole
    from its origin, and the output tile's block index is (batch ≤ 15, half ≤ 1, 0). -/
theorem index_q : ∀ t : Fin cfg0.N, win0_0.index t (0 : Fin 3) = win0_6.index t (0 : Fin 3)
    ∧ win0_0.index t (1 : Fin 3) = win0_6.index t (1 : Fin 3)
    ∧ win0_0.index t (2 : Fin 3) = win0_6.index t (2 : Fin 3)
    ∧ win0_1.index t (0 : Fin 2) = 0
    ∧ win0_1.index t (1 : Fin 2) = 0
    ∧ win0_6.index t (0 : Fin 3) ≤ 15
    ∧ win0_6.index t (1 : Fin 3) ≤ 1
    ∧ win0_6.index t (2 : Fin 3) = 0 :=
  (by decide +kernel : ∀ t : Fin grid0.N, _)

/-- Every (batch, half) is some grid point's output tile. -/
theorem onto_q : ∀ (q0 : Fin 16) (q1 : Fin 2), ∃ t : Fin cfg0.N, win0_6.index t = ![q0.val, q1.val, 0] :=
  (by decide +kernel : ∀ (q0 : Fin 16) (q1 : Fin 2), ∃ t : Fin grid0.N, win0_6.index t = ![q0.val, q1.val, 0])

section Region
variable (V : (c : Dev nD) → (b : Ref sig .tc) → Buf (Elt Ideal) ((c : Thread nD τ).loc b))

/-- What grid point t writes back to the first output is tile t of x·Wq. -/
theorem flushed_q (c : Dev nD) (t : Fin cfg0.N) :
    (dat0 (F := Ideal) V c).flushed 6 t
      = ((cfg0.win 6).blk t).view.read (Elt Ideal) (projection (V c main_v0) (V c main_v1)) := by
  show (cfg0.win 6).cut (grid0.coords t) ((dat0 V c).after 6 t) = _
  rw [after0_6]
  unfold out0_6
  rw [View.canon_unit_zero zero3]
  simp only [View.ld_unit_zero (S := S1x512x1024) zero3, View.ld_unit_zero (S := S1024x1024) zero2]
  funext j
  show k0_pay5 (F := Ideal) (iblk0 V c 0 t) (iblk0 V c 1 t) j
    = projection (V c main_v0) (V c main_v1) (((cfg0.win 6).blk t).view.emb j)
  refine (pay_q_idx _ _ j).trans ?_
  unfold projection ofCoords rowDot
  refine Finset.sum_congr rfl fun d _ => ?_
  obtain ⟨e0, e1, e2, e3, e4, b0, b1, b2⟩ := index_q t
  have hj0 : (j 0).val < 1 := (j 0).isLt
  have hx : iblk0 V c 0 t (ix3 (0 : Fin 1) (j 1) d)
      = V c main_v0 (ix3 ⟨(((cfg0.win 6).blk t).view.emb j 0).val, (((cfg0.win 6).blk t).view.emb j 0).isLt⟩
          ⟨(((cfg0.win 6).blk t).view.emb j 1).val, (((cfg0.win 6).blk t).view.emb j 1).isLt⟩ d) := by
    show V c main_v0 (((cfg0.win 0).blk t).view.emb (ix3 (0 : Fin 1) (j 1) d)) = _
    refine congrArg (V c main_v0) ?_
    funext a; apply Fin.ext
    match a with
    | ⟨0, _⟩ => show win0_0.index t (0 : Fin 3) * 1 + 1 * 0 = win0_6.index t (0 : Fin 3) * 1 + 1 * (j 0).val; omega
    | ⟨1, _⟩ => show win0_0.index t (1 : Fin 3) * 512 + 1 * (j 1).val = win0_6.index t (1 : Fin 3) * 512 + 1 * (j 1).val; omega
    | ⟨2, _⟩ => show win0_0.index t (2 : Fin 3) * 1024 + 1 * d.val = d.val; omega
  have hw : iblk0 V c 1 t (ix2 d (j 2))
      = V c main_v1 (ix2 d ⟨(((cfg0.win 6).blk t).view.emb j 2).val, (((cfg0.win 6).blk t).view.emb j 2).isLt⟩) := by
    show V c main_v1 (((cfg0.win 1).blk t).view.emb (ix2 d (j 2))) = _
    refine congrArg (V c main_v1) ?_
    funext a; apply Fin.ext
    match a with
    | ⟨0, _⟩ => show win0_1.index t (0 : Fin 2) * 1024 + 1 * d.val = d.val; omega
    | ⟨1, _⟩ => show win0_1.index t (1 : Fin 2) * 1024 + 1 * (j 2).val = win0_6.index t (2 : Fin 3) * 1024 + 1 * (j 2).val; omega
  exact congrArg₂ (· * ·) hx hw

end Region

/-- An index of the first output is in grid point t's tile iff each coordinate is in the tile's range on its axis. -/
theorem mem_tile_q (t : Fin cfg0.N) (i : S16x1024x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v6_0).slice (win0_6.rect t)).set ↔ _
  rw [View.set_slice_whole, Rect.mem_set_unit]
  exact Iff.rfl

/-- Row s of batch b lies in the tile with block index (b, s / 512, 0): the tiles cover the array. -/
theorem cover_q (i : S16x1024x1024.Idx) :
    ∃ t : Fin cfg0.N, (cfg0.win 6).flush t = true ∧ i ∈ ((cfg0.win 6).blk t).view.set := by
  have hi0 : (i 0).val < 16 := (i 0).isLt
  have hi1 : (i 1).val < 1024 := (i 1).isLt
  have hi2 : (i 2).val < 1024 := (i 2).isLt
  obtain ⟨t, ht⟩ := onto_q ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_tile_q]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

section Region
variable (V : (c : Dev nD) → (b : Ref sig .tc) → Buf (Elt Ideal) ((c : Thread nD τ).loc b))

/-- After the region the first output holds x·Wq. -/
theorem final_q (c : Dev nD) :
    (dat0 (F := Ideal) V c).arrAt 6 cfg0.N = projection (V c main_v0) (V c main_v1) :=
  (dat0 (F := Ideal) V c).arrAt_eq_of_cover 6 (projection (V c main_v0) (V c main_v1))
    (fun t _ => flushed_q V c t) cover_q

end Region

theorem pay_k (x0 : FVec Ideal S1x512x1024 .bf16) (W : FVec Ideal S1024x1024 .bf16) (z : Fin 1) (r : Fin 512) (u : Fin 1024) :
    k0_pay6 (F := Ideal) x0 W (ix3 z r u) = rowDot (fun d => x0 (ix3 (0 : Fin 1) r d)) W u := by
  unfold k0_pay6
  rw [shapeCast_ab_1ab_apply, truncf_apply, shapeCast_self, tile_proj_at]

theorem pay_k_idx (x0 : FVec Ideal S1x512x1024 .bf16) (W : FVec Ideal S1024x1024 .bf16) (j : S1x512x1024.Idx) :
    k0_pay6 (F := Ideal) x0 W j = rowDot (fun d => x0 (ix3 (0 : Fin 1) (j 1) d)) W (j 2) :=
  (congrArg (k0_pay6 (F := Ideal) x0 W) (eq_ix3 j)).trans (pay_k x0 W (j 0) (j 1) (j 2))

theorem pay_v (x0 : FVec Ideal S1x512x1024 .bf16) (W : FVec Ideal S1024x1024 .bf16) (z : Fin 1) (r : Fin 512) (u : Fin 1024) :
    k0_pay1 (F := Ideal) (k0_pay7 (F := Ideal) x0 W) (ix3 z r u) = rowDot (fun d => x0 (ix3 (0 : Fin 1) r d)) W u := by
  unfold k0_pay1 k0_pay7
  rw [shapeCast_ab_1ab_apply, truncf_apply, shapeCast_self, tile_proj_at]

theorem pay_v_idx (x0 : FVec Ideal S1x512x1024 .bf16) (W : FVec Ideal S1024x1024 .bf16) (j : S1x512x1024.Idx) :
    k0_pay1 (F := Ideal) (k0_pay7 (F := Ideal) x0 W) j = rowDot (fun d => x0 (ix3 (0 : Fin 1) (j 1) d)) W (j 2) :=
  (congrArg (k0_pay1 (F := Ideal) (k0_pay7 (F := Ideal) x0 W)) (eq_ix3 j)).trans (pay_v x0 W (j 0) (j 1) (j 2))

/-! ## The second output: x·Wk -/

theorem index_k : ∀ t : Fin cfg0.N, win0_0.index t (0 : Fin 3) = win0_7.index t (0 : Fin 3)
    ∧ win0_0.index t (1 : Fin 3) = win0_7.index t (1 : Fin 3)
    ∧ win0_0.index t (2 : Fin 3) = win0_7.index t (2 : Fin 3)
    ∧ win0_2.index t (0 : Fin 2) = 0
    ∧ win0_2.index t (1 : Fin 2) = 0
    ∧ win0_7.index t (0 : Fin 3) ≤ 15
    ∧ win0_7.index t (1 : Fin 3) ≤ 1
    ∧ win0_7.index t (2 : Fin 3) = 0 :=
  (by decide +kernel : ∀ t : Fin grid0.N, _)

theorem onto_k : ∀ (q0 : Fin 16) (q1 : Fin 2), ∃ t : Fin cfg0.N, win0_7.index t = ![q0.val, q1.val, 0] :=
  (by decide +kernel : ∀ (q0 : Fin 16) (q1 : Fin 2), ∃ t : Fin grid0.N, win0_7.index t = ![q0.val, q1.val, 0])

section Region
variable (V : (c : Dev nD) → (b : Ref sig .tc) → Buf (Elt Ideal) ((c : Thread nD τ).loc b))

/-- What grid point t writes back to the second output is tile t of x·Wk. -/
theorem flushed_k (c : Dev nD) (t : Fin cfg0.N) :
    (dat0 (F := Ideal) V c).flushed 7 t
      = ((cfg0.win 7).blk t).view.read (Elt Ideal) (projection (V c main_v0) (V c main_v2)) := by
  show (cfg0.win 7).cut (grid0.coords t) ((dat0 V c).after 7 t) = _
  rw [after0_7]
  unfold out0_7
  rw [View.canon_unit_zero zero3]
  simp only [View.ld_unit_zero (S := S1x512x1024) zero3, View.ld_unit_zero (S := S1024x1024) zero2]
  funext j
  show k0_pay6 (F := Ideal) (iblk0 V c 0 t) (iblk0 V c 2 t) j
    = projection (V c main_v0) (V c main_v2) (((cfg0.win 7).blk t).view.emb j)
  refine (pay_k_idx _ _ j).trans ?_
  unfold projection ofCoords rowDot
  refine Finset.sum_congr rfl fun d _ => ?_
  obtain ⟨e0, e1, e2, e3, e4, b0, b1, b2⟩ := index_k t
  have hj0 : (j 0).val < 1 := (j 0).isLt
  have hx : iblk0 V c 0 t (ix3 (0 : Fin 1) (j 1) d)
      = V c main_v0 (ix3 ⟨(((cfg0.win 7).blk t).view.emb j 0).val, (((cfg0.win 7).blk t).view.emb j 0).isLt⟩
          ⟨(((cfg0.win 7).blk t).view.emb j 1).val, (((cfg0.win 7).blk t).view.emb j 1).isLt⟩ d) := by
    show V c main_v0 (((cfg0.win 0).blk t).view.emb (ix3 (0 : Fin 1) (j 1) d)) = _
    refine congrArg (V c main_v0) ?_
    funext a; apply Fin.ext
    match a with
    | ⟨0, _⟩ => show win0_0.index t (0 : Fin 3) * 1 + 1 * 0 = win0_7.index t (0 : Fin 3) * 1 + 1 * (j 0).val; omega
    | ⟨1, _⟩ => show win0_0.index t (1 : Fin 3) * 512 + 1 * (j 1).val = win0_7.index t (1 : Fin 3) * 512 + 1 * (j 1).val; omega
    | ⟨2, _⟩ => show win0_0.index t (2 : Fin 3) * 1024 + 1 * d.val = d.val; omega
  have hw : iblk0 V c 2 t (ix2 d (j 2))
      = V c main_v2 (ix2 d ⟨(((cfg0.win 7).blk t).view.emb j 2).val, (((cfg0.win 7).blk t).view.emb j 2).isLt⟩) := by
    show V c main_v2 (((cfg0.win 2).blk t).view.emb (ix2 d (j 2))) = _
    refine congrArg (V c main_v2) ?_
    funext a; apply Fin.ext
    match a with
    | ⟨0, _⟩ => show win0_2.index t (0 : Fin 2) * 1024 + 1 * d.val = d.val; omega
    | ⟨1, _⟩ => show win0_2.index t (1 : Fin 2) * 1024 + 1 * (j 2).val = win0_7.index t (2 : Fin 3) * 1024 + 1 * (j 2).val; omega
  exact congrArg₂ (· * ·) hx hw

end Region

theorem mem_tile_k (t : Fin cfg0.N) (i : S16x1024x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v6_1).slice (win0_7.rect t)).set ↔ _
  rw [View.set_slice_whole, Rect.mem_set_unit]
  exact Iff.rfl

theorem cover_k (i : S16x1024x1024.Idx) :
    ∃ t : Fin cfg0.N, (cfg0.win 7).flush t = true ∧ i ∈ ((cfg0.win 7).blk t).view.set := by
  have hi0 : (i 0).val < 16 := (i 0).isLt
  have hi1 : (i 1).val < 1024 := (i 1).isLt
  have hi2 : (i 2).val < 1024 := (i 2).isLt
  obtain ⟨t, ht⟩ := onto_k ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_tile_k]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

section Region
variable (V : (c : Dev nD) → (b : Ref sig .tc) → Buf (Elt Ideal) ((c : Thread nD τ).loc b))

/-- After the region the second output holds x·Wk. -/
theorem final_k (c : Dev nD) :
    (dat0 (F := Ideal) V c).arrAt 7 cfg0.N = projection (V c main_v0) (V c main_v2) :=
  (dat0 (F := Ideal) V c).arrAt_eq_of_cover 7 (projection (V c main_v0) (V c main_v2))
    (fun t _ => flushed_k V c t) cover_k

end Region

/-! ## The third output: x·Wv -/

theorem index_v : ∀ t : Fin cfg0.N, win0_0.index t (0 : Fin 3) = win0_8.index t (0 : Fin 3)
    ∧ win0_0.index t (1 : Fin 3) = win0_8.index t (1 : Fin 3)
    ∧ win0_0.index t (2 : Fin 3) = win0_8.index t (2 : Fin 3)
    ∧ win0_3.index t (0 : Fin 2) = 0
    ∧ win0_3.index t (1 : Fin 2) = 0
    ∧ win0_8.index t (0 : Fin 3) ≤ 15
    ∧ win0_8.index t (1 : Fin 3) ≤ 1
    ∧ win0_8.index t (2 : Fin 3) = 0 :=
  (by decide +kernel : ∀ t : Fin grid0.N, _)

theorem onto_v : ∀ (q0 : Fin 16) (q1 : Fin 2), ∃ t : Fin cfg0.N, win0_8.index t = ![q0.val, q1.val, 0] :=
  (by decide +kernel : ∀ (q0 : Fin 16) (q1 : Fin 2), ∃ t : Fin grid0.N, win0_8.index t = ![q0.val, q1.val, 0])

section Region
variable (V : (c : Dev nD) → (b : Ref sig .tc) → Buf (Elt Ideal) ((c : Thread nD τ).loc b))

/-- What grid point t writes back to the third output is tile t of x·Wv. -/
theorem flushed_v (c : Dev nD) (t : Fin cfg0.N) :
    (dat0 (F := Ideal) V c).flushed 8 t
      = ((cfg0.win 8).blk t).view.read (Elt Ideal) (projection (V c main_v0) (V c main_v3)) := by
  show (cfg0.win 8).cut (grid0.coords t) ((dat0 V c).after 8 t) = _
  rw [after0_8]
  unfold out0_8
  rw [View.canon_unit_zero zero3]
  simp only [View.ld_unit_zero (S := S1x512x1024) zero3, View.ld_unit_zero (S := S1024x1024) zero2]
  funext j
  show k0_pay1 (F := Ideal) (k0_pay7 (F := Ideal) (iblk0 V c 0 t) (iblk0 V c 3 t)) j
    = projection (V c main_v0) (V c main_v3) (((cfg0.win 8).blk t).view.emb j)
  refine (pay_v_idx _ _ j).trans ?_
  unfold projection ofCoords rowDot
  refine Finset.sum_congr rfl fun d _ => ?_
  obtain ⟨e0, e1, e2, e3, e4, b0, b1, b2⟩ := index_v t
  have hj0 : (j 0).val < 1 := (j 0).isLt
  have hx : iblk0 V c 0 t (ix3 (0 : Fin 1) (j 1) d)
      = V c main_v0 (ix3 ⟨(((cfg0.win 8).blk t).view.emb j 0).val, (((cfg0.win 8).blk t).view.emb j 0).isLt⟩
          ⟨(((cfg0.win 8).blk t).view.emb j 1).val, (((cfg0.win 8).blk t).view.emb j 1).isLt⟩ d) := by
    show V c main_v0 (((cfg0.win 0).blk t).view.emb (ix3 (0 : Fin 1) (j 1) d)) = _
    refine congrArg (V c main_v0) ?_
    funext a; apply Fin.ext
    match a with
    | ⟨0, _⟩ => show win0_0.index t (0 : Fin 3) * 1 + 1 * 0 = win0_8.index t (0 : Fin 3) * 1 + 1 * (j 0).val; omega
    | ⟨1, _⟩ => show win0_0.index t (1 : Fin 3) * 512 + 1 * (j 1).val = win0_8.index t (1 : Fin 3) * 512 + 1 * (j 1).val; omega
    | ⟨2, _⟩ => show win0_0.index t (2 : Fin 3) * 1024 + 1 * d.val = d.val; omega
  have hw : iblk0 V c 3 t (ix2 d (j 2))
      = V c main_v3 (ix2 d ⟨(((cfg0.win 8).blk t).view.emb j 2).val, (((cfg0.win 8).blk t).view.emb j 2).isLt⟩) := by
    show V c main_v3 (((cfg0.win 3).blk t).view.emb (ix2 d (j 2))) = _
    refine congrArg (V c main_v3) ?_
    funext a; apply Fin.ext
    match a with
    | ⟨0, _⟩ => show win0_3.index t (0 : Fin 2) * 1024 + 1 * d.val = d.val; omega
    | ⟨1, _⟩ => show win0_3.index t (1 : Fin 2) * 1024 + 1 * (j 2).val = win0_8.index t (2 : Fin 3) * 1024 + 1 * (j 2).val; omega
  exact congrArg₂ (· * ·) hx hw

end Region

theorem mem_tile_v (t : Fin cfg0.N) (i : S16x1024x1024.Idx) :
    i ∈ ((cfg0.win 8).blk t).view.set ↔ ∀ a : Fin 3, win0_8.index t a * S1x512x1024.size a ≤ (i a).val
      ∧ (i a).val < win0_8.index t a * S1x512x1024.size a + S1x512x1024.size a := by
  show i ∈ ((View.whole main_v6_2).slice (win0_8.rect t)).set ↔ _
  rw [View.set_slice_whole, Rect.mem_set_unit]
  exact Iff.rfl

theorem cover_v (i : S16x1024x1024.Idx) :
    ∃ t : Fin cfg0.N, (cfg0.win 8).flush t = true ∧ i ∈ ((cfg0.win 8).blk t).view.set := by
  have hi0 : (i 0).val < 16 := (i 0).isLt
  have hi1 : (i 1).val < 1024 := (i 1).isLt
  have hi2 : (i 2).val < 1024 := (i 2).isLt
  obtain ⟨t, ht⟩ := onto_v ⟨(i 0).val, hi0⟩ ⟨(i 1).val / 512, by omega⟩
  have q0 : win0_8.index t (0 : Fin 3) = (i 0).val := congrFun ht 0
  have q1 : win0_8.index t (1 : Fin 3) = (i 1).val / 512 := congrFun ht 1
  have q2 : win0_8.index t (2 : Fin 3) = 0 := congrFun ht 2
  refine ⟨t, flush0_8 t, ?_⟩
  rw [mem_tile_v]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

section Region
variable (V : (c : Dev nD) → (b : Ref sig .tc) → Buf (Elt Ideal) ((c : Thread nD τ).loc b))

/-- After the region the third output holds x·Wv. -/
theorem final_v (c : Dev nD) :
    (dat0 (F := Ideal) V c).arrAt 8 cfg0.N = projection (V c main_v0) (V c main_v3) :=
  (dat0 (F := Ideal) V c).arrAt_eq_of_cover 8 (projection (V c main_v0) (V c main_v3))
    (fun t _ => flushed_v V c t) cover_v

end Region

/-- The gate's tile: the product plus the bias row, through the logistic function; at (z, r, u). -/
theorem pay_g (x0 : FVec Ideal S1x512x1024 .bf16) (W : FVec Ideal S1024x1024 .bf16) (b : FVec Ideal S1x1024 .f32)
    (z : Fin 1) (r : Fin 512) (u : Fin 1024) :
    k0_pay2 (F := Ideal) (k0_pay4 (F := Ideal) x0 W b) (ix3 z r u)
      = Ideal.logistic (rowDot (fun d => x0 (ix3 (0 : Fin 1) r d)) W u + b (ix2 (0 : Fin 1) u)) := by
  unfold k0_pay2 k0_pay4
  rw [shapeCast_ab_1ab_apply, truncf_apply]
  show Ideal.logistic ((addf _ _ : FVec Ideal S512x1024 .f32) (ix2 r u)) = _
  rw [addf_apply, shapeCast_self, tile_proj_at, broadcastTo_1b_ab_apply, shapeCast_a_1a_apply, shapeCast_1a_a_apply]

theorem pay_g_idx (x0 : FVec Ideal S1x512x1024 .bf16) (W : FVec Ideal S1024x1024 .bf16) (b : FVec Ideal S1x1024 .f32)
    (j : S1x512x1024.Idx) :
    k0_pay2 (F := Ideal) (k0_pay4 (F := Ideal) x0 W b) j
      = Ideal.logistic (rowDot (fun d => x0 (ix3 (0 : Fin 1) (j 1) d)) W (j 2) + b (ix2 (0 : Fin 1) (j 2))) :=
  (congrArg (k0_pay2 (F := Ideal) (k0_pay4 (F := Ideal) x0 W b)) (eq_ix3 j)).trans (pay_g x0 W b (j 0) (j 1) (j 2))

/-! ## The fourth output: the gate logistic (x·Wm + bias) -/

theorem index_g : ∀ t : Fin cfg0.N, win0_0.index t (0 : Fin 3) = win0_9.index t (0 : Fin 3)
    ∧ win0_0.index t (1 : Fin 3) = win0_9.index t (1 : Fin 3)
    ∧ win0_0.index t (2 : Fin 3) = win0_9.index t (2 : Fin 3)
    ∧ win0_4.index t (0 : Fin 2) = 0
    ∧ win0_4.index t (1 : Fin 2) = 0
    ∧ win0_5.index t (0 : Fin 2) = 0
    ∧ win0_5.index t (1 : Fin 2) = 0
    ∧ win0_9.index t (0 : Fin 3) ≤ 15
    ∧ win0_9.index t (1 : Fin 3) ≤ 1
    ∧ win0_9.index t (2 : Fin 3) = 0 :=
  (by decide +kernel : ∀ t : Fin grid0.N, _)

theorem onto_g : ∀ (q0 : Fin 16) (q1 : Fin 2), ∃ t : Fin cfg0.N, win0_9.index t = ![q0.val, q1.val, 0] :=
  (by decide +kernel : ∀ (q0 : Fin 16) (q1 : Fin 2), ∃ t : Fin grid0.N, win0_9.index t = ![q0.val, q1.val, 0])

section Region
variable (V : (c : Dev nD) → (b : Ref sig .tc) → Buf (Elt Ideal) ((c : Thread nD τ).loc b))

/-- The bias row of the [1, 1024] array, as a vector along the last axis. -/
abbrev biasRow (c : Dev nD) : Vec1 := fun j => V c main_v5 (ix2 (0 : Fin 1) ⟨(j 0).val, (j 0).isLt⟩)

/-- What grid point t writes back to the fourth output is tile t of the gate. -/
theorem flushed_g (c : Dev nD) (t : Fin cfg0.N) :
    (dat0 (F := Ideal) V c).flushed 9 t
      = ((cfg0.win 9).blk t).view.read (Elt Ideal) (gate (V c main_v0) (V c main_v4) (biasRow V c)) := by
  show (cfg0.win 9).cut (grid0.coords t) ((dat0 V c).after 9 t) = _
  rw [after0_9]
  unfold out0_9
  rw [View.canon_unit_zero zero3]
  simp only [View.ld_unit_zero (S := S1x512x1024) zero3, View.ld_unit_zero (S := S1024x1024) zero2,
    View.ld_unit_zero (S := S1x1024) zero2]
  funext j
  show k0_pay2 (F := Ideal) (k0_pay4 (F := Ideal) (iblk0 V c 0 t) (iblk0 V c 4 t) (iblk0 V c 5 t)) j
    = gate (V c main_v0) (V c main_v4) (biasRow V c) (((cfg0.win 9).blk t).view.emb j)
  refine (pay_g_idx _ _ _ j).trans ?_
  unfold gate ofCoords rowDot
  obtain ⟨e0, e1, e2, e3, e4, e5, e6, b0, b1, b2⟩ := index_g t
  have hj0 : (j 0).val < 1 := (j 0).isLt
  refine congrArg Ideal.logistic (congrArg₂ (· + ·) (Finset.sum_congr rfl fun d _ => ?_) ?_)
  · have hx : iblk0 V c 0 t (ix3 (0 : Fin 1) (j 1) d)
        = V c main_v0 (ix3 ⟨(((cfg0.win 9).blk t).view.emb j 0).val, (((cfg0.win 9).blk t).view.emb j 0).isLt⟩
            ⟨(((cfg0.win 9).blk t).view.emb j 1).val, (((cfg0.win 9).blk t).view.emb j 1).isLt⟩ d) := by
      show V c main_v0 (((cfg0.win 0).blk t).view.emb (ix3 (0 : Fin 1) (j 1) d)) = _
      refine congrArg (V c main_v0) ?_
      funext a; apply Fin.ext
      match a with
      | ⟨0, _⟩ => show win0_0.index t (0 : Fin 3) * 1 + 1 * 0 = win0_9.index t (0 : Fin 3) * 1 + 1 * (j 0).val; omega
      | ⟨1, _⟩ => show win0_0.index t (1 : Fin 3) * 512 + 1 * (j 1).val = win0_9.index t (1 : Fin 3) * 512 + 1 * (j 1).val; omega
      | ⟨2, _⟩ => show win0_0.index t (2 : Fin 3) * 1024 + 1 * d.val = d.val; omega
    have hw : iblk0 V c 4 t (ix2 d (j 2))
        = V c main_v4 (ix2 d ⟨(((cfg0.win 9).blk t).view.emb j 2).val, (((cfg0.win 9).blk t).view.emb j 2).isLt⟩) := by
      show V c main_v4 (((cfg0.win 4).blk t).view.emb (ix2 d (j 2))) = _
      refine congrArg (V c main_v4) ?_
      funext a; apply Fin.ext
      match a with
      | ⟨0, _⟩ => show win0_4.index t (0 : Fin 2) * 1024 + 1 * d.val = d.val; omega
      | ⟨1, _⟩ => show win0_4.index t (1 : Fin 2) * 1024 + 1 * (j 2).val = win0_9.index t (2 : Fin 3) * 1024 + 1 * (j 2).val; omega
    exact congrArg₂ (· * ·) hx hw
  · show V c main_v5 (((cfg0.win 5).blk t).view.emb (ix2 (0 : Fin 1) (j 2))) = V c main_v5 _
    refine congrArg (V c main_v5) ?_
    funext a; apply Fin.ext
    match a with
    | ⟨0, _⟩ => show win0_5.index t (0 : Fin 2) * 1 + 1 * 0 = 0; omega
    | ⟨1, _⟩ => show win0_5.index t (1 : Fin 2) * 1024 + 1 * (j 2).val = win0_9.index t (2 : Fin 3) * 1024 + 1 * (j 2).val; omega

end Region

theorem mem_tile_g (t : Fin cfg0.N) (i : S16x1024x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v6_3).slice (win0_9.rect t)).set ↔ _
  rw [View.set_slice_whole, Rect.mem_set_unit]
  exact Iff.rfl

theorem cover_g (i : S16x1024x1024.Idx) :
    ∃ t : Fin cfg0.N, (cfg0.win 9).flush t = true ∧ i ∈ ((cfg0.win 9).blk t).view.set := by
  have hi0 : (i 0).val < 16 := (i 0).isLt
  have hi1 : (i 1).val < 1024 := (i 1).isLt
  have hi2 : (i 2).val < 1024 := (i 2).isLt
  obtain ⟨t, ht⟩ := onto_g ⟨(i 0).val, hi0⟩ ⟨(i 1).val / 512, by omega⟩
  have q0 : win0_9.index t (0 : Fin 3) = (i 0).val := congrFun ht 0
  have q1 : win0_9.index t (1 : Fin 3) = (i 1).val / 512 := congrFun ht 1
  have q2 : win0_9.index t (2 : Fin 3) = 0 := congrFun ht 2
  refine ⟨t, flush0_9 t, ?_⟩
  rw [mem_tile_g]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

section Region
variable (V : (c : Dev nD) → (b : Ref sig .tc) → Buf (Elt Ideal) ((c : Thread nD τ).loc b))

/-- After the region the fourth output holds the gate. -/
theorem final_g (c : Dev nD) :
    (dat0 (F := Ideal) V c).arrAt 9 cfg0.N
      = gate (V c main_v0) (V c main_v4) (fun j => V c main_v5 (ix2 (0 : Fin 1) ⟨(j 0).val, (j 0).isLt⟩)) :=
  (dat0 (F := Ideal) V c).arrAt_eq_of_cover 9 (gate (V c main_v0) (V c main_v4) (biasRow V c))
    (fun t _ => flushed_g V c t) cover_g

end Region

end Cert.KernelIdeal.ProjValue

end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.AttnBody.lean ====
/-
  The attention body's arithmetic, read at an index.

  The body holds one batch: four [1, 1024, 1024] blocks q, k, v, g. Dropping the unit axis, it forms the scores
  q·kᵀ (a product contracted over the LAST axis of both factors) times 1/32, subtracts each row's maximum,
  exponentiates, divides by the row's sum, multiplies by the gate entry by entry, and multiplies the result with v
  (contracted over the key axis). A matrix product into a zero accumulator is the plain sum of products; a
  reduction along a row is a fold of max from -∞, or a sum; a column kept after a row reduction reads the same
  number along its whole row. So the stored block at (0, s, u) is `attend q k v g s u`.
-/
import proofs.«134380_j56659208569094_1_alg».proof.Proof.Gen.KernelIdeal.Skeleton
import proofs.«134380_j56659208569094_1_alg».proof.Proof.Spec
import proofs.«134380_j56659208569094_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnBody

open Cert.KernelIdeal Cert.KernelIdeal.Gen Cert.GatedAttention
open Idealize.ShloMosaic Idealize.ShloMosaic.ValueIdx

/-- The product contracted over the last axis of both factors (q against kᵀ). -/
abbrev dotLast := dot_S1024x1024_S1024x1024_S1024x1024_1_1_0_0_n_n
/-- The ordinary product (rows against columns). -/
abbrev dotPlain := dot_S1024x1024_S1024x1024_S1024x1024_1_0_0_1_n_n

/-- At an output index, the left factor's index keeps the output's row (both products). -/
theorem dotLast_lhs_row (i : S1024x1024.Idx) (q : dotLast.contr.Idx) : (dotLast.lhsIdx i q 0).val = (i 0).val := by
  unfold DotDims.lhsIdx
  rw [dif_neg (show ¬(0 : Fin S1024x1024.rank) ∈ dotLast.lhsBatch by decide), dif_pos (show (0 : Fin S1024x1024.rank) ∈ dotLast.lhsNonContracting by decide)]
  rfl
/-- For the product against the transpose, the right factor's ROW is the output's column. -/
theorem dotLast_rhs_row (i : S1024x1024.Idx) (q : dotLast.contr.Idx) : (dotLast.rhsIdx i q 0).val = (i 1).val := by
  unfold DotDims.rhsIdx
  rw [dif_neg (show ¬(0 : Fin S1024x1024.rank) ∈ dotLast.rhsBatch by decide), dif_pos (show (0 : Fin S1024x1024.rank) ∈ dotLast.rhsNonContracting by decide)]
  rfl
theorem dotPlain_lhs_row (i : S1024x1024.Idx) (q : dotPlain.contr.Idx) : (dotPlain.lhsIdx i q 0).val = (i 0).val := by
  unfold DotDims.lhsIdx
  rw [dif_neg (show ¬(0 : Fin S1024x1024.rank) ∈ dotPlain.lhsBatch by decide), dif_pos (show (0 : Fin S1024x1024.rank) ∈ dotPlain.lhsNonContracting by decide)]
  rfl
/-- For the ordinary product, the right factor's column is the output's column. -/
theorem dotPlain_rhs_col (i : S1024x1024.Idx) (q : dotPlain.contr.Idx) : (dotPlain.rhsIdx i q 1).val = (i 1).val := by
  unfold DotDims.rhsIdx
  rw [dif_neg (show ¬(1 : Fin S1024x1024.rank) ∈ dotPlain.rhsBatch by decide), dif_pos (show (1 : Fin S1024x1024.rank) ∈ dotPlain.rhsNonContracting by decide)]
  rfl

/-- `A·Bᵀ` into a zero accumulator, at (s, t): the sum over u of A (s, u) · B (t, u). -/
theorem matmul_last (A B : FVec Ideal S1024x1024 .bf16) (s t : Fin 1024) :
    matmul dotLast none A B (constant S1024x1024 .f32 0x00000000#32) (ix2 s t) = ∑ u : Fin 1024, A (ix2 s u) * B (ix2 t u) := by
  simp only [matmul]
  rw [Ideal.matmul_constant_zero_apply, ← Equiv.sum_comp (contrEquiv1 dotLast 1024 rfl rfl).symm]
  refine Finset.sum_congr rfl fun k _ => ?_
  have hk := contrEquiv1_symm_val dotLast 1024 rfl rfl k
  have el : dotLast.lhsIdx (ix2 s t) ((contrEquiv1 dotLast 1024 rfl rfl).symm k) = ix2 s k := funext fun a => Fin.ext (by
    match a with
    | ⟨0, _⟩ => exact dotLast_lhs_row _ _
    | ⟨1, _⟩ => exact (dotLast.lhsIdx_val_of_single rfl _ _).trans hk)
  have er : dotLast.rhsIdx (ix2 s t) ((contrEquiv1 dotLast 1024 rfl rfl).symm k) = ix2 t k := funext fun a => Fin.ext (by
    match a with
    | ⟨0, _⟩ => exact dotLast_rhs_row _ _
    | ⟨1, _⟩ => exact (dotLast.rhsIdx_val_of_single rfl _ _).trans hk)
  rw [el, er]

/-- `A·B` into a zero accumulator, at (s, u): the sum over t of A (s, t) · B (t, u). -/
theorem matmul_plain (A B : FVec Ideal S1024x1024 .bf16) (s u : Fin 1024) :
    matmul dotPlain none A B (constant S1024x1024 .f32 0x00000000#32) (ix2 s u) = ∑ t : Fin 1024, A (ix2 s t) * B (ix2 t u) := by
  simp only [matmul]
  rw [Ideal.matmul_constant_zero_apply, ← Equiv.sum_comp (contrEquiv1 dotPlain 1024 rfl rfl).symm]
  refine Finset.sum_congr rfl fun k _ => ?_
  have hk := contrEquiv1_symm_val dotPlain 1024 rfl rfl k
  have el : dotPlain.lhsIdx (ix2 s u) ((contrEquiv1 dotPlain 1024 rfl rfl).symm k) = ix2 s k := funext fun a => Fin.ext (by
    match a with
    | ⟨0, _⟩ => exact dotPlain_lhs_row _ _
    | ⟨1, _⟩ => exact (dotPlain.lhsIdx_val_of_single rfl _ _).trans hk)
  have er : dotPlain.rhsIdx (ix2 s u) ((contrEquiv1 dotPlain 1024 rfl rfl).symm k) = ix2 k u := funext fun a => Fin.ext (by
    match a with
    | ⟨0, _⟩ => exact (dotPlain.rhsIdx_val_of_single rfl _ _).trans hk
    | ⟨1, _⟩ => exact dotPlain_rhs_col _ _)
  rw [el, er]

/-- A row's maximum taken from -∞: the fold of max over the row. -/
theorem row_max (M : FVec Ideal S1024x1024 .f32) (h : S1024x1024.Reduces [1] S1024) (hφ : FKind.Formats .f32)
    (hacc : (0xFF800000#32 : BitVec 32) = FKind.maximumf.neutral .f32 hφ) (s : Fin 1024) :
    multiReduction .maximumf [1] S1024 M 0xFF800000#32 h hφ hacc (ix1 s)
      = (Finset.univ : Finset (Fin 1024)).fold max negInf (fun t => M (ix2 s t)) :=
  (Ideal.multiReduction_maximumf_single M 0xFF800000#32 h hφ hacc (ix1 s)).trans
    (congrArg (fun f => (Finset.univ : Finset (Fin 1024)).fold max negInf f) (funext fun t => congrArg M (funext fun a => Fin.ext (by
      match a with
      | ⟨0, _⟩ => rfl
      | ⟨1, _⟩ => rfl))))

/-- A row's sum. -/
theorem row_sum (M : FVec Ideal S1024x1024 .f32) (h : S1024x1024.Reduces [1] S1024) (hφ : FKind.Formats .f32)
    (hacc : (0x00000000#32 : BitVec 32) = FKind.add.neutral .f32 hφ) (s : Fin 1024) :
    multiReduction .add [1] S1024 M 0x00000000#32 h hφ hacc (ix1 s) = ∑ t : Fin 1024, M (ix2 s t) :=
  (Ideal.multiReduction_add_single M 0x00000000#32 h hφ hacc (ix1 s)).trans
    (Finset.sum_congr rfl fun t _ => congrArg M (funext fun a => Fin.ext (by
      match a with
      | ⟨0, _⟩ => rfl
      | ⟨1, _⟩ => rfl)))

/-! ## The body's layers, each a function of its operand, read at an index -/

/-- The exponential, entry by entry. -/
theorem exp_apply {s : Shape} {φ : FTy} (a : FVec Ideal s φ) (i : s.Idx) : exp a i = Ideal.exp (a i) := rfl

/-- A vector kept as a column and spread along its rows: what a row reduction with the axis kept looks like. -/
def keepCol (v : FVec Ideal S1024 .f32) : FVec Ideal S1024x1024 .f32 :=
  broadcastTo S1024x1024 (shapeCast S1024x1 v shapeCasts_S1024_S1024x1) broadcasts_S1024x1_S1024x1024

/-- It reads, anywhere along row `s`, the vector at `s`. -/
theorem keepCol_at (v : FVec Ideal S1024 .f32) (s t : Fin 1024) : keepCol v (ix2 s t) = v (ix1 s) :=
  (Cert.Rbf.Keepdims.broadcastTo_a1_ab_apply _ _ s t).trans (Cert.Rbf.Keepdims.shapeCast_a_a1_apply v _ s 0)

/-- The scaled scores of a batch: q against kᵀ, times the scale. -/
def scoresOf (x0 x1 : FVec Ideal S1x1024x1024 .bf16) : FVec Ideal S1024x1024 .f32 :=
  mulf (matmul dotLast none (shapeCast S1024x1024 x0 shapeCasts_S1x1024x1024_S1024x1024)
      (shapeCast S1024x1024 x1 shapeCasts_S1x1024x1024_S1024x1024) (constant S1024x1024 .f32 0x00000000#32))
    (broadcast S1024x1024 (FloatOps.ofBits .f32 0x3D000000#32))

theorem scoresOf_at (x0 x1 : FVec Ideal S1x1024x1024 .bf16) (s t : Fin 1024) :
    scoresOf x0 x1 (ix2 s t) = score (fun s u => x0 (ix3 (0 : Fin 1) s u)) (fun t u => x1 (ix3 (0 : Fin 1) t u)) s t := by
  unfold scoresOf score scale
  rw [mulf_apply, broadcast_apply, matmul_last, Ideal.ofBits_def]
  refine congrArg (· * Ideal.ofBits .f32 0x3D000000#32) (Finset.sum_congr rfl fun u _ => ?_)
  rw [shapeCast_1ab_ab_apply, shapeCast_1ab_ab_apply]

/-- The rows' maxima, from -∞ and once more against -∞. -/
def maxOf (Sc : FVec Ideal S1024x1024 .f32) : FVec Ideal S1024 .f32 :=
  maximumf (broadcast S1024 (FloatOps.ofBits .f32 0xFF800000#32))
    (multiReduction .maximumf [1] S1024 Sc 0xFF800000#32 reduces_S1024x1024_S1024 (.inl rfl) rfl)

theorem maxOf_at (Sc : FVec Ideal S1024x1024 .f32) (s : Fin 1024) :
    maxOf Sc (ix1 s) = max negInf ((Finset.univ : Finset (Fin 1024)).fold max negInf (fun t => Sc (ix2 s t))) := by
  unfold maxOf
  rw [maximumf_apply, broadcast_apply, Ideal.ofBits_def]
  exact congrArg (max negInf) (row_max Sc _ _ _ s)

/-- The shifted exponentials. -/
def expOf (Sc : FVec Ideal S1024x1024 .f32) : FVec Ideal S1024x1024 .f32 := exp (subf Sc (keepCol (maxOf Sc)))

theorem expOf_at (Sc : FVec Ideal S1024x1024 .f32) (s t : Fin 1024) :
    expOf Sc (ix2 s t)
      = Ideal.exp (Sc (ix2 s t) - max negInf ((Finset.univ : Finset (Fin 1024)).fold max negInf (fun t => Sc (ix2 s t)))) := by
  unfold expOf
  rw [exp_apply, subf_apply, keepCol_at, maxOf_at]

/-- The rows' sums. -/
def sumOf (E : FVec Ideal S1024x1024 .f32) : FVec Ideal S1024 .f32 :=
  multiReduction .add [1] S1024 E 0x00000000#32 reduces_S1024x1024_S1024 (.inl rfl) rfl

/-- The softmax of the scores. -/
def softOf (Sc : FVec Ideal S1024x1024 .f32) : FVec Ideal S1024x1024 .f32 :=
  divf (expOf Sc) (keepCol (sumOf (expOf Sc)))

theorem softOf_at (Sc : FVec Ideal S1024x1024 .f32) (s t : Fin 1024) :
    softOf Sc (ix2 s t) = Ideal.div (expOf Sc (ix2 s t)) (∑ t' : Fin 1024, expOf Sc (ix2 s t')) := by
  unfold softOf
  rw [divf_apply, keepCol_at]
  unfold sumOf
  exact congrArg (Ideal.div _) (row_sum (expOf Sc) _ _ _ s)

/-- The body's stored value is these layers, composed: the payload folded into their names. -/
theorem body_fold (x0 x1 x2 x3 : FVec Ideal S1x1024x1024 .bf16) :
    k1_pay1 (F := Ideal) x0 x1 x2 x3
      = shapeCast S1x1024x1024
          (matmul dotPlain none
            (truncf .bf16 (mulf (softOf (scoresOf x0 x1))
              (extf .f32 (shapeCast S1024x1024 x3 shapeCasts_S1x1024x1024_S1024x1024) bitsLt_bf16_f32)) bitsLt_bf16_f32)
            (shapeCast S1024x1024 x2 shapeCasts_S1x1024x1024_S1024x1024) (constant S1024x1024 .f32 0x00000000#32))
          shapeCasts_S1024x1024_S1x1024x1024 := rfl

/-- The block the body stores, at (z, s, u): the gated attention of the batch's four matrices. -/
theorem body_at (x0 x1 x2 x3 : FVec Ideal S1x1024x1024 .bf16) (z : Fin 1) (s u : Fin 1024) :
    k1_pay1 (F := Ideal) x0 x1 x2 x3 (ix3 z s u)
      = attend (fun s u => x0 (ix3 (0 : Fin 1) s u)) (fun t u => x1 (ix3 (0 : Fin 1) t u)) (fun t u => x2 (ix3 (0 : Fin 1) t u))
          (fun s t => x3 (ix3 (0 : Fin 1) s t)) s u := by
  rw [body_fold]
  refine (shapeCast_ab_1ab_apply _ _ z s u).trans ?_
  refine (matmul_plain _ _ s u).trans ?_
  unfold attend
  refine Finset.sum_congr rfl fun t _ => ?_
  refine congrArg₂ (· * ·) ?_ (shapeCast_1ab_ab_apply x2 _ t u)
  rw [truncf_apply, mulf_apply, extf_apply, softOf_at, shapeCast_1ab_ab_apply]
  unfold weight denom expo rowMax
  simp only [expOf_at, scoresOf_at]

end Cert.KernelIdeal.AttnBody

end
-- ==== Proof.AttnValue.lean ====
/-
  The attention region: from what each grid point writes back to the whole result array.

  The grid has one point per batch. At point t every window — the four inputs q, k, v, g and the output — holds
  the [1, 1024, 1024] block whose batch coordinate is the point's, the other two block coordinates being 0; so a
  block index (z, s, u) sits at (batch of t, s, u) of its array. Given that the body turns four input blocks into
  `attend` of their four matrices, what point t writes back is block t of `attention Q K V G`; the sixteen blocks
  tile the array, so the array ends as `attention Q K V G` of the arrays the region found.
-/
import proofs.«134380_j56659208569094_1_alg».proof.Proof.Gen.KernelIdeal.Frame
import proofs.«134380_j56659208569094_1_alg».proof.Proof.Spec
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.GatedAttention
open Idealize.ShloMosaic Idealize.ShloMosaic.TcCoe Idealize.ShloMosaic.ValueIdx

theorem origin3 : (![0, 0, 0] : Fin 3 → Nat) = fun _ => 0 := funext fun a => by fin_cases a <;> rfl

/-- `attend` of equal matrices at equal coordinates. -/
theorem attend_congr {q q' k k' v v' g g' : Fin 1024 → Fin 1024 → EReal} {s s' u u' : Fin 1024}
    (hq : q = q') (hk : k = k') (hv : v = v') (hg : g = g') (hs : s = s') (hu : u = u') :
    attend q k v g s u = attend q' k' v' g' s' u' := by
  subst hq hk hv hg hs hu; rfl

/-- The body's arithmetic at an index given whole, from the same at an index given by coordinates. -/
theorem body_idx
    (hbody : ∀ (x0 x1 x2 x3 : FVec Ideal S1x1024x1024 .bf16) (z : Fin 1) (s u : Fin 1024),
        k1_pay1 (F := Ideal) x0 x1 x2 x3 (ix3 z s u)
          = attend (fun s u => x0 (ix3 (0 : Fin 1) s u)) (fun t u => x1 (ix3 (0 : Fin 1) t u))
              (fun t u => x2 (ix3 (0 : Fin 1) t u)) (fun s t => x3 (ix3 (0 : Fin 1) s t)) s u)
    (x0 x1 x2 x3 : FVec Ideal S1x1024x1024 .bf16) (j : S1x1024x1024.Idx) :
    k1_pay1 (F := Ideal) x0 x1 x2 x3 j
      = attend (fun s u => x0 (ix3 (0 : Fin 1) s u)) (fun t u => x1 (ix3 (0 : Fin 1) t u))
          (fun t u => x2 (ix3 (0 : Fin 1) t u)) (fun s t => x3 (ix3 (0 : Fin 1) s t)) (j 1) (j 2) :=
  (congrArg (k1_pay1 (F := Ideal) x0 x1 x2 x3) (eq_ix3 j)).trans (hbody x0 x1 x2 x3 (j 0) (j 1) (j 2))

/-- The index maps, decided over the sixteen points: every window's block index is (batch, 0, 0) with the
    output's batch, and the batch is below 16. -/
theorem index_facts : ∀ t : Fin cfg1.N,
    win1_0.index t (0 : Fin 3) = win1_4.index t (0 : Fin 3) ∧ win1_0.index t (1 : Fin 3) = 0 ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (0 : Fin 3) ≤ 15 ∧ win1_4.index t (1 : Fin 3) = 0 ∧ win1_4.index t (2 : Fin 3) = 0 :=
  (by decide +kernel : ∀ t : Fin grid1.N, _)

/-- Every batch is some point's. -/
theorem index_onto : ∀ q0 : Fin 16, ∃ t : Fin cfg1.N, win1_4.index t = ![q0.val, 0, 0] :=
  (by decide +kernel : ∀ q0 : Fin 16, ∃ t : Fin grid1.N, win1_4.index t = ![q0.val, 0, 0])

section Region
variable (V : (c : Dev nD) → (b : Ref sig .tc) → Buf (Elt Ideal) ((c : Thread nD τ).loc b))

/-- What point t writes back is block t of the gated attention of the four arrays the region found. -/
theorem flushed_attn
    (hbody : ∀ (x0 x1 x2 x3 : FVec Ideal S1x1024x1024 .bf16) (z : Fin 1) (s u : Fin 1024),
        k1_pay1 (F := Ideal) x0 x1 x2 x3 (ix3 z s u)
          = attend (fun s u => x0 (ix3 (0 : Fin 1) s u)) (fun t u => x1 (ix3 (0 : Fin 1) t u))
              (fun t u => x2 (ix3 (0 : Fin 1) t u)) (fun s t => x3 (ix3 (0 : Fin 1) s t)) s u)
    (c : Dev nD) (t : Fin cfg1.N) :
    (dat1 (F := Ideal) V c).flushed 4 t
      = ((cfg1.win 4).blk t).view.read (Elt Ideal)
          (attention (V c main_v6_0) (V c main_v6_1) (V c main_v6_2) (V c main_v6_3)) := by
  show (cfg1.win 4).cut (grid1.coords t) ((dat1 V c).after 4 t) = _
  rw [after1_4]
  unfold out1_4
  rw [View.canon_unit_zero origin3]
  simp only [View.ld_unit_zero (S := S1x1024x1024) origin3]
  funext j
  show k1_pay1 (F := Ideal) (iblk1 V c 0 t) (iblk1 V c 1 t) (iblk1 V c 2 t) (iblk1 V c 3 t) j
    = attention (V c main_v6_0) (V c main_v6_1) (V c main_v6_2) (V c main_v6_3) (((cfg1.win 4).blk t).view.emb j)
  refine (body_idx hbody _ _ _ _ j).trans ?_
  unfold attention ofCoords
  obtain ⟨e00, e01, e02, e10, e11, e12, e20, e21, e22, e30, e31, e32, hb15, e41, e42⟩ := index_facts t
  have hj0 : (j 0).val < 1 := (j 0).isLt
  have h0 : (fun (s u : Fin 1024) => iblk1 V c 0 t (ix3 (0 : Fin 1) s u))
      = fun s u => V c main_v6_0 (ix3 ⟨(((cfg1.win 4).blk t).view.emb j 0).val, (((cfg1.win 4).blk t).view.emb j 0).isLt⟩ s u) := by
    funext s u
    show V c main_v6_0 (((cfg1.win 0).blk t).view.emb (ix3 (0 : Fin 1) s u)) = _
    refine congrArg (V c main_v6_0) ?_
    funext a; apply Fin.ext
    match a with
    | ⟨0, _⟩ => show win1_0.index t (0 : Fin 3) * 1 + 1 * 0 = win1_4.index t (0 : Fin 3) * 1 + 1 * (j 0).val; omega
    | ⟨1, _⟩ => show win1_0.index t (1 : Fin 3) * 1024 + 1 * s.val = s.val; omega
    | ⟨2, _⟩ => show win1_0.index t (2 : Fin 3) * 1024 + 1 * u.val = u.val; omega
  have h1 : (fun (s u : Fin 1024) => iblk1 V c 1 t (ix3 (0 : Fin 1) s u))
      = fun s u => V c main_v6_1 (ix3 ⟨(((cfg1.win 4).blk t).view.emb j 0).val, (((cfg1.win 4).blk t).view.emb j 0).isLt⟩ s u) := by
    funext s u
    show V c main_v6_1 (((cfg1.win 1).blk t).view.emb (ix3 (0 : Fin 1) s u)) = _
    refine congrArg (V c main_v6_1) ?_
    funext a; apply Fin.ext
    match a with
    | ⟨0, _⟩ => show win1_1.index t (0 : Fin 3) * 1 + 1 * 0 = win1_4.index t (0 : Fin 3) * 1 + 1 * (j 0).val; omega
    | ⟨1, _⟩ => show win1_1.index t (1 : Fin 3) * 1024 + 1 * s.val = s.val; omega
    | ⟨2, _⟩ => show win1_1.index t (2 : Fin 3) * 1024 + 1 * u.val = u.val; omega
  have h2 : (fun (s u : Fin 1024) => iblk1 V c 2 t (ix3 (0 : Fin 1) s u))
      = fun s u => V c main_v6_2 (ix3 ⟨(((cfg1.win 4).blk t).view.emb j 0).val, (((cfg1.win 4).blk t).view.emb j 0).isLt⟩ s u) := by
    funext s u
    show V c main_v6_2 (((cfg1.win 2).blk t).view.emb (ix3 (0 : Fin 1) s u)) = _
    refine congrArg (V c main_v6_2) ?_
    funext a; apply Fin.ext
    match a with
    | ⟨0, _⟩ => show win1_2.index t (0 : Fin 3) * 1 + 1 * 0 = win1_4.index t (0 : Fin 3) * 1 + 1 * (j 0).val; omega
    | ⟨1, _⟩ => show win1_2.index t (1 : Fin 3) * 1024 + 1 * s.val = s.val; omega
    | ⟨2, _⟩ => show win1_2.index t (2 : Fin 3) * 1024 + 1 * u.val = u.val; omega
  have h3 : (fun (s u : Fin 1024) => iblk1 V c 3 t (ix3 (0 : Fin 1) s u))
      = fun s u => V c main_v6_3 (ix3 ⟨(((cfg1.win 4).blk t).view.emb j 0).val, (((cfg1.win 4).blk t).view.emb j 0).isLt⟩ s u) := by
    funext s u
    show V c main_v6_3 (((cfg1.win 3).blk t).view.emb (ix3 (0 : Fin 1) s u)) = _
    refine congrArg (V c main_v6_3) ?_
    funext a; apply Fin.ext
    match a with
    | ⟨0, _⟩ => show win1_3.index t (0 : Fin 3) * 1 + 1 * 0 = win1_4.index t (0 : Fin 3) * 1 + 1 * (j 0).val; omega
    | ⟨1, _⟩ => show win1_3.index t (1 : Fin 3) * 1024 + 1 * s.val = s.val; omega
    | ⟨2, _⟩ => show win1_3.index t (2 : Fin 3) * 1024 + 1 * u.val = u.val; omega
  have hs : (j 1 : Fin 1024) = ⟨(((cfg1.win 4).blk t).view.emb j 1).val, (((cfg1.win 4).blk t).view.emb j 1).isLt⟩ := by
    apply Fin.ext
    show (j 1).val = win1_4.index t (1 : Fin 3) * 1024 + 1 * (j 1).val; omega
  have hu : (j 2 : Fin 1024) = ⟨(((cfg1.win 4).blk t).view.emb j 2).val, (((cfg1.win 4).blk t).view.emb j 2).isLt⟩ := by
    apply Fin.ext
    show (j 2).val = win1_4.index t (2 : Fin 3) * 1024 + 1 * (j 2).val; omega
  exact attend_congr h0 h1 h2 h3 hs hu

end Region

/-- An index of the result array is in point t's block iff each coordinate is in the block's range on its axis. -/
theorem mem_blk (t : Fin cfg1.N) (i : S16x1024x1024.Idx) :
    i ∈ ((cfg1.win 4).blk t).view.set ↔ ∀ a : Fin 3, win1_4.index t a * S1x1024x1024.size a ≤ (i a).val
      ∧ (i a).val < win1_4.index t a * S1x1024x1024.size a + S1x1024x1024.size a := by
  show i ∈ ((View.whole main_v7).slice (win1_4.rect t)).set ↔ _
  rw [View.set_slice_whole, Rect.mem_set_unit]
  exact Iff.rfl

/-- Batch b is covered by the point whose block index is (b, 0, 0): the blocks cover the array. -/
theorem cover (i : S16x1024x1024.Idx) :
    ∃ t : Fin cfg1.N, (cfg1.win 4).flush t = true ∧ i ∈ ((cfg1.win 4).blk t).view.set := by
  have hi0 : (i 0).val < 16 := (i 0).isLt
  have hi1 : (i 1).val < 1024 := (i 1).isLt
  have hi2 : (i 2).val < 1024 := (i 2).isLt
  obtain ⟨t, ht⟩ := index_onto ⟨(i 0).val, hi0⟩
  have q0 : win1_4.index t (0 : Fin 3) = (i 0).val := congrFun ht 0
  have q1 : win1_4.index t (1 : Fin 3) = 0 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

section Region
variable (V : (c : Dev nD) → (b : Ref sig .tc) → Buf (Elt Ideal) ((c : Thread nD τ).loc b))

/-- After the region the result array holds the gated attention of the four arrays the region found. -/
theorem final_attn_of
    (hbody : ∀ (x0 x1 x2 x3 : FVec Ideal S1x1024x1024 .bf16) (z : Fin 1) (s u : Fin 1024),
        Gen.k1_pay1 (F := Ideal) x0 x1 x2 x3 (ValueIdx.ix3 z s u)
          = Cert.GatedAttention.attend (fun s u => x0 (ValueIdx.ix3 (0 : Fin 1) s u)) (fun t u => x1 (ValueIdx.ix3 (0 : Fin 1) t u))
              (fun t u => x2 (ValueIdx.ix3 (0 : Fin 1) t u)) (fun s t => x3 (ValueIdx.ix3 (0 : Fin 1) s t)) s u)
    (c : Dev nD) :
    (Gen.dat1 (F := Ideal) V c).arrAt 4 cfg1.N
      = Cert.GatedAttention.attention (V c main_v6_0) (V c main_v6_1) (V c main_v6_2) (V c main_v6_3) :=
  (dat1 (F := Ideal) V c).arrAt_eq_of_cover 4
    (attention (V c main_v6_0) (V c main_v6_1) (V c main_v6_2) (V c main_v6_3))
    (fun t _ => flushed_attn V hbody c t) cover

end Region

end Cert.KernelIdeal.AttnValue

end
-- ==== Proof.KernelValue.lean ====
/-
  The kernel program's result, as the gated attention of its six arguments — given what each of its two regions
  computes.

  The program runs in three steps. First, on the host: the five float arguments x, Wq, Wk, Wv, Wm change format
  (on extended reals that is the identity) and the bias bm : [1024] is viewed as a row [1, 1024]. Second, a first
  region reads those six arrays and writes four: the projections x·Wq, x·Wk, x·Wv and the gate
  logistic (x·Wm + bm). Third, a second region reads those four arrays and writes their gated attention.

  What a region leaves in an output array is a statement about that region alone, for ANY contents it is entered
  with; the five such statements are taken here as hypotheses. This file is the bookkeeping between them: which
  array each step reads is the array the previous step wrote, and the arrays the host step wrote are the arguments
  (the bias read back through the reshape: entry (0, j) of the row is entry j of the vector).
-/
import proofs.«134380_j56659208569094_1_alg».proof.Proof.Gen.KernelIdeal.Frame
import proofs.«134380_j56659208569094_1_alg».proof.Proof.Spec
import Idealize.ShloMosaic.Lib.ValueIdx
import Idealize.ShloMosaic.Lib.ValueLayout
import Idealize.ShloMosaic.Lib.StableHlo.Run

noncomputable section

namespace Cert.KernelIdeal.Compose

open Cert.KernelIdeal Cert.KernelIdeal.Gen
open Idealize.ShloMosaic Idealize.ShloMosaic.TcCoe Idealize.SL.Sem Idealize.ShloMosaic.StableHlo
open Idealize.ShloMosaic.ValueIdx

/-! ## The host stretch read back

Before the first region the program changes the format of the five float arguments (the identity on extended reals)
and views the bias `[1024]` as a row `[1, 1024]`. -/

section
variable (m : (ℓ : Loc nD τ sig) → Buf (Elt Ideal) ℓ) (ρ : Dev nD → PrngReg) (c : Dev nD)

/-- A change of float format is the identity on extended reals: the converted array is the argument. -/
theorem V1_v0 : (V1 m ρ c main_v0 : S16x1024x1024.Idx → EReal) = m ((c : Thread nD τ).loc main_arg0) := by
  dsimp only [Gen.V1, Gen.W1, Gen.W0, Gen.hostOps0]
  after_results
  rfl

theorem V1_v1 : (V1 m ρ c main_v1 : S1024x1024.Idx → EReal) = m ((c : Thread nD τ).loc main_arg1) := by
  dsimp only [Gen.V1, Gen.W1, Gen.W0, Gen.hostOps0]
  after_results
  rfl

theorem V1_v2 : (V1 m ρ c main_v2 : S1024x1024.Idx → EReal) = m ((c : Thread nD τ).loc main_arg2) := by
  dsimp only [Gen.V1, Gen.W1, Gen.W0, Gen.hostOps0]
  after_results
  rfl

theorem V1_v3 : (V1 m ρ c main_v3 : S1024x1024.Idx → EReal) = m ((c : Thread nD τ).loc main_arg3) := by
  dsimp only [Gen.V1, Gen.W1, Gen.W0, Gen.hostOps0]
  after_results
  rfl

theorem V1_v4 : (V1 m ρ c main_v4 : S1024x1024.Idx → EReal) = m ((c : Thread nD τ).loc main_arg4) := by
  dsimp only [Gen.V1, Gen.W1, Gen.W0, Gen.hostOps0]
  after_results
  rfl

/-- The reshaped bias is the argument viewed as a `[1, 1024]` row. -/
theorem V1_v5_cast : (V1 m ρ c main_v5 : S1x1024.Idx → EReal)
    = shapeCast S1x1024 (m ((c : Thread nD τ).loc main_arg5) : S1024.Idx → EReal) shapeCasts_S1024_S1x1024 := by
  dsimp only [Gen.V1, Gen.W1, Gen.W0, Gen.hostOps0]
  after_results
  rfl

/-- Entry `(0, j)` of the row is entry `j` of the bias: the two row-major positions coincide. -/
theorem V1_v5 : (fun j : S1024.Idx => (V1 m ρ c main_v5 : S1x1024.Idx → EReal) (ix2 (0 : Fin 1) ⟨(j 0).val, (j 0).isLt⟩))
    = m ((c : Thread nD τ).loc main_arg5) := by
  funext j
  rw [V1_v5_cast, shapeCast_a_1a_apply]
  exact congrArg (m ((c : Thread nD τ).loc main_arg5)) (eq_ix1 j).symm
end

/-! ## The two regions composed

The first region leaves the three projections and the gate in its four output arrays; the second reads those four
arrays and leaves their gated attention in the result. With the host stretch read back, the result is the gated
attention of the six arguments. -/

theorem kernel_value_of
    (hq : ∀ (V : (c : Dev nD) → (b : Ref sig .tc) → Buf (Elt Ideal) ((c : Thread nD τ).loc b)) (c : Dev nD),
      (Gen.dat0 (F := Ideal) V c).arrAt 6 cfg0.N = Cert.GatedAttention.projection (V c main_v0) (V c main_v1))
    (hk : ∀ (V : (c : Dev nD) → (b : Ref sig .tc) → Buf (Elt Ideal) ((c : Thread nD τ).loc b)) (c : Dev nD),
      (Gen.dat0 (F := Ideal) V c).arrAt 7 cfg0.N = Cert.GatedAttention.projection (V c main_v0) (V c main_v2))
    (hv : ∀ (V : (c : Dev nD) → (b : Ref sig .tc) → Buf (Elt Ideal) ((c : Thread nD τ).loc b)) (c : Dev nD),
      (Gen.dat0 (F := Ideal) V c).arrAt 8 cfg0.N = Cert.GatedAttention.projection (V c main_v0) (V c main_v3))
    (hg : ∀ (V : (c : Dev nD) → (b : Ref sig .tc) → Buf (Elt Ideal) ((c : Thread nD τ).loc b)) (c : Dev nD),
      (Gen.dat0 (F := Ideal) V c).arrAt 9 cfg0.N = Cert.GatedAttention.gate (V c main_v0) (V c main_v4)
        (fun j => V c main_v5 (ValueIdx.ix2 (0 : Fin 1) ⟨(j 0).val, (j 0).isLt⟩)))
    (ha : ∀ (V : (c : Dev nD) → (b : Ref sig .tc) → Buf (Elt Ideal) ((c : Thread nD τ).loc b)) (c : Dev nD),
      (Gen.dat1 (F := Ideal) V c).arrAt 4 cfg1.N
        = Cert.GatedAttention.attention (V c main_v6_0) (V c main_v6_1) (V c main_v6_2) (V c main_v6_3))
    (m : (ℓ : Loc nD τ sig) → Buf (Elt Ideal) ℓ) (ρ : Dev nD → PrngReg) (c : Dev nD) :
    Gen.W3 (F := Ideal) m ρ c (Proc.devRef .tc main_v7)
      = Cert.GatedAttention.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  -- the result array is the second region's output window
  have h7 : Gen.W3 (F := Ideal) m ρ c (Proc.devRef .tc main_v7) = (Gen.dat1 (Gen.V2 m ρ) c).arrAt 4 cfg1.N :=
    Gen.W3_arr m ρ c 4
  -- the second region's four inputs are the first region's four outputs
  have e0 : Gen.V2 m ρ c main_v6_0 = Cert.GatedAttention.projection (Gen.V1 m ρ c main_v0) (Gen.V1 m ρ c main_v1) :=
    (Gen.W2_arr m ρ c 6).trans (hq (Gen.V1 m ρ) c)
  have e1 : Gen.V2 m ρ c main_v6_1 = Cert.GatedAttention.projection (Gen.V1 m ρ c main_v0) (Gen.V1 m ρ c main_v2) :=
    (Gen.W2_arr m ρ c 7).trans (hk (Gen.V1 m ρ) c)
  have e2 : Gen.V2 m ρ c main_v6_2 = Cert.GatedAttention.projection (Gen.V1 m ρ c main_v0) (Gen.V1 m ρ c main_v3) :=
    (Gen.W2_arr m ρ c 8).trans (hv (Gen.V1 m ρ) c)
  have e3 : Gen.V2 m ρ c main_v6_3 = Cert.GatedAttention.gate (Gen.V1 m ρ c main_v0) (Gen.V1 m ρ c main_v4)
      (fun j => Gen.V1 m ρ c main_v5 (ValueIdx.ix2 (0 : Fin 1) ⟨(j 0).val, (j 0).isLt⟩)) :=
    (Gen.W2_arr m ρ c 9).trans (hg (Gen.V1 m ρ) c)
  rw [h7, ha (Gen.V2 m ρ) c, e0, e1, e2, e3, V1_v0, V1_v1, V1_v2, V1_v3, V1_v4, V1_v5]
  rfl

end Cert.KernelIdeal.Compose

end
-- ==== Proof.RefValue.lean ====
/-
  The reference program, read as the gated attention of its six arguments.

  The reference computes, from x : [16, 1024, 1024], Wq, Wk, Wv, Wm : [1024, 1024] and bm : [1024],
    q = x·Wq, k = x·Wk, v = x·Wv,   scores = (q·kᵀ) / √1024,
    a softmax over the last axis written out as: row maximum from -∞ (and once more against -∞), subtract,
    exponential, row sum from 0, divide,
    the gate 1 / (1 + exp (-(x·Wm + bm))),   and   (softmax · gate)·v.
  Each intermediate array is identified, at coordinates (b, s, t), with the corresponding quantity of the
  specification for batch b. The two spellings differ in three places only:
  • the scale: dividing by √1024 = 32 is multiplying by 1/32, and this holds for EVERY extended real, the
    infinities included, because 32 is a nonzero real;
  • the row maximum: a reduction by a commutative and associative operation over one axis is the fold of that
    operation over the axis's coordinates, and the reduced index (b, s) with t inserted is (b, s, t);
  • the gate: 1 / (1 + exp (-y)) is the logistic function of y by definition, the words of 1.0 denoting 1; and
    the row sum starts from the word of +0.0, which denotes 0.
-/
import proofs.«134380_j56659208569094_1_alg».proof.Proof.Gen.ReferenceIdeal.Read
import proofs.«134380_j56659208569094_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.GatedAttention
open Idealize.ShloMosaic Idealize.ShloMosaic.ValueIdx

/-! ## The float words the reference spells, as extended reals -/

/-- The word `0x44800000` denotes the real `1024`. -/
theorem ofBits_1024 : Ideal.ofBits .f32 0x44800000#32 = ((1024 : ℝ) : EReal) := by
  simp [Ideal.ofBits, Ideal.ieee, -EReal.coe_mul]; norm_num

/-- The word `0x3D000000` denotes the real `1/32`. -/
theorem ofBits_inv32 : Ideal.ofBits .f32 0x3D000000#32 = ((1 / 32 : ℝ) : EReal) := by
  simp [Ideal.ofBits, Ideal.ieee, -EReal.coe_mul]; norm_num

/-- The word `0x3F800000` denotes `1`. -/
theorem ofBits_one : Ideal.ofBits .f32 0x3F800000#32 = 1 := by
  simp [Ideal.ofBits, Ideal.ieee, -EReal.coe_mul]; norm_num

/-- `√1024 = 32`, since `1024 = 32 · 32`. -/
theorem sqrt_1024 : Real.sqrt 1024 = 32 := by
  rw [show (1024 : ℝ) = 32 * 32 by norm_num]
  exact Real.sqrt_mul_self (by norm_num)

section
variable (x0 : (⟨S16x1024x1024, .f32⟩ : BufTy).Contents (Elt Ideal))
  (x1 x2 x3 x4 : (⟨S1024x1024, .f32⟩ : BufTy).Contents (Elt Ideal))
  (x5 : (⟨S1024, .f32⟩ : BufTy).Contents (Elt Ideal))

/-! ## One batch's four matrices, by coordinates -/

/-- The queries `x·Wq`, the keys `x·Wk`, the values `x·Wv` and the gate of batch `b`. -/
abbrev qm (b : Fin 16) : Fin 1024 → Fin 1024 → EReal := fun s u => projection x0 x1 (ix3 b s u)
abbrev km (b : Fin 16) : Fin 1024 → Fin 1024 → EReal := fun t u => projection x0 x2 (ix3 b t u)
abbrev vm (b : Fin 16) : Fin 1024 → Fin 1024 → EReal := fun t u => projection x0 x3 (ix3 b t u)
abbrev gm (b : Fin 16) : Fin 1024 → Fin 1024 → EReal := fun s t => gate x0 x4 x5 (ix3 b s t)

/-! ## The projections: a row of `x` against a matrix -/

/-- A `dot_general` contracting the last axis of `x` with the first of `W` is, at `(b, s, u)`, row `(b, s)` of
    `x` against column `u` of `W`. -/
theorem v0_at (W : (⟨S1024x1024, .f32⟩ : BufTy).Contents (Elt Ideal)) (b : Fin 16) (s u : Fin 1024) :
    val_main_v0 (F := Ideal) x0 W (ix3 b s u) = projection x0 W (ix3 b s u) := by
  rw [val_main_v0_apply]
  show _ = rowDot (fun d => x0 (ix3 b s d)) W u
  unfold rowDot
  refine Finset.sum_congr rfl fun d _ => ?_
  have el : lidx_main_v0 (ix3 b s u) d = ix3 b s d := funext fun a => Fin.ext (by match a with | ⟨0, _⟩ => rfl | ⟨1, _⟩ => rfl | ⟨2, _⟩ => rfl)
  have er : ridx_main_v0 (ix3 b s u) d = ix2 d u := funext fun a => Fin.ext (by match a with | ⟨0, _⟩ => rfl | ⟨1, _⟩ => rfl)
  rw [el, er]

/-- The other three projections are the same function of their two operands. -/
theorem v1_at (W : (⟨S1024x1024, .f32⟩ : BufTy).Contents (Elt Ideal)) (b : Fin 16) (s u : Fin 1024) :
    val_main_v1 (F := Ideal) x0 W (ix3 b s u) = projection x0 W (ix3 b s u) := v0_at x0 W b s u
theorem v2_at (W : (⟨S1024x1024, .f32⟩ : BufTy).Contents (Elt Ideal)) (b : Fin 16) (s u : Fin 1024) :
    val_main_v2 (F := Ideal) x0 W (ix3 b s u) = projection x0 W (ix3 b s u) := v0_at x0 W b s u
theorem v18_at (W : (⟨S1024x1024, .f32⟩ : BufTy).Contents (Elt Ideal)) (b : Fin 16) (s u : Fin 1024) :
    val_main_v18 (F := Ideal) x0 W (ix3 b s u) = projection x0 W (ix3 b s u) := v0_at x0 W b s u

/-! ## The scores -/

/-- The batched `dot_general` of queries against keys: at `(b, s, t)`, query row `s` against key row `t`. -/
theorem v3_at (b : Fin 16) (s t : Fin 1024) :
    val_main_v3 (F := Ideal) x0 x1 x2 (ix3 b s t) = ∑ u : Fin 1024, qm x0 x1 b s u * km x0 x2 b t u := by
  rw [val_main_v3_apply]
  refine Finset.sum_congr rfl fun u _ => ?_
  have el : lidx_main_v3 (ix3 b s t) u = ix3 b s u := funext fun a => Fin.ext (by match a with | ⟨0, _⟩ => rfl | ⟨1, _⟩ => rfl | ⟨2, _⟩ => rfl)
  have er : ridx_main_v3 (ix3 b s t) u = ix3 b t u := funext fun a => Fin.ext (by match a with | ⟨0, _⟩ => rfl | ⟨1, _⟩ => rfl | ⟨2, _⟩ => rfl)
  rw [el, er, v0_at, v1_at]

/-- The divisor `√1024` is `32` at every index. -/
theorem v5_at (i : S16x1024x1024.Idx) : val_main_v5 (F := Ideal) i = ((32 : ℝ) : EReal) := by
  rw [val_main_v5_apply, val_main_v4_apply, val_main_cst_apply, Ideal.hostUnary_sqrt_def, Ideal.ofBits_def,
    ofBits_1024, Ideal.sqrt_coe, if_neg (by norm_num), sqrt_1024]

/-- Dividing by `32` is multiplying by `1/32`, for every extended real: the reference's scores are the
    specification's. -/
theorem v6_at (b : Fin 16) (s t : Fin 1024) :
    val_main_v6 (F := Ideal) x0 x1 x2 (ix3 b s t) = score (qm x0 x1 b) (km x0 x2 b) s t := by
  rw [val_main_v6_apply, Ideal.hostDivf_def, v5_at, v3_at, Ideal.div_coe (by norm_num : (32 : ℝ) ≠ 0)]
  unfold score scale
  rw [ofBits_inv32]

/-! ## The row maximum -/

/-- A reduced index `(b, s)` with the coordinate `t` inserted on the last axis is `(b, s, t)`. -/
theorem lift_at (h : S16x1024x1024.Reduces [2] S16x1024) (b : Fin 16) (s t : Fin 1024) :
    h.lift (ix2 b s) t = ix3 b s t := funext fun a => Fin.ext (by match a with | ⟨0, _⟩ => rfl | ⟨1, _⟩ => rfl | ⟨2, _⟩ => rfl)

/-- The max-reduce over the last axis from `-∞`: at `(b, s)`, the fold of `max` over the scores of row `s`. -/
theorem v7_at (b : Fin 16) (s : Fin 1024) :
    val_main_v7 (F := Ideal) x0 x1 x2 (ix2 b s)
      = (Finset.univ : Finset (Fin 1024)).fold max negInf (fun t => score (qm x0 x1 b) (km x0 x2 b) s t) := by
  have h : S16x1024x1024.Reduces [2] S16x1024 := by decide
  unfold val_main_v7
  rw [Host.reduce_eq_fold_single FloatOps.maximumf _ _ reducesTo_S16x1024x1024_S16x1024_d2 h h_S_ (ix2 b s)]
  have hf : (fun t : Fin 1024 => val_main_v6 (F := Ideal) x0 x1 x2 (h.lift (ix2 b s) t))
      = fun t => score (qm x0 x1 b) (km x0 x2 b) s t := by
    funext t
    rw [lift_at, v6_at]
  exact congrArg (fun f : Fin 1024 → EReal => (Finset.univ : Finset (Fin 1024)).fold max negInf f) hf

theorem v8_at (i : S16x1024.Idx) : val_main_v8 (F := Ideal) i = negInf := by
  rw [val_main_v8_apply, val_main_cst_1_apply, Ideal.ofBits_def]; rfl

theorem v9_at (b : Fin 16) (s : Fin 1024) :
    val_main_v9 (F := Ideal) x0 x1 x2 (ix2 b s) = rowMax (qm x0 x1 b) (km x0 x2 b) s := by
  rw [val_main_v9_apply, Ideal.maximumf_def, v8_at, v7_at]; rfl

/-- The row maximum kept as a column and broadcast back along the last axis reads, at `(b, s, t)`, the maximum
    of row `(b, s)`. -/
theorem v11_at (b : Fin 16) (s t : Fin 1024) :
    val_main_v11 (F := Ideal) x0 x1 x2 (ix3 b s t) = rowMax (qm x0 x1 b) (km x0 x2 b) s := by
  rw [val_main_v11_apply, val_main_v10_apply]
  have e : idx_main_v10 (idx_main_v11 (ix3 b s t)) = ix2 b s := funext fun a => Fin.ext (by match a with | ⟨0, _⟩ => rfl | ⟨1, _⟩ => rfl)
  rw [e, v9_at]

/-! ## The shifted exponentials and their row sums -/

theorem v13_at (b : Fin 16) (s t : Fin 1024) :
    val_main_v13 (F := Ideal) x0 x1 x2 (ix3 b s t) = expo (qm x0 x1 b) (km x0 x2 b) s t := by
  rw [val_main_v13_apply, Ideal.hostUnary_exp_def, val_main_v12_apply, Ideal.subf_def, v6_at, v11_at]; rfl

/-- The sum-reduce over the last axis starts from the word of `+0.0`, which denotes `0`. -/
theorem v14_at (b : Fin 16) (s : Fin 1024) :
    val_main_v14 (F := Ideal) x0 x1 x2 (ix2 b s) = denom (qm x0 x1 b) (km x0 x2 b) s := by
  rw [val_main_v14_apply, val_main_cst_2_apply, Ideal.ofBits_def, Ideal.ofBits_zero_f32, zero_add]
  unfold denom
  refine Finset.sum_congr rfl fun t _ => ?_
  have e : idx_main_v14 (ix2 b s) t = ix3 b s t := funext fun a => Fin.ext (by match a with | ⟨0, _⟩ => rfl | ⟨1, _⟩ => rfl | ⟨2, _⟩ => rfl)
  rw [e, v13_at]

theorem v16_at (b : Fin 16) (s t : Fin 1024) :
    val_main_v16 (F := Ideal) x0 x1 x2 (ix3 b s t) = denom (qm x0 x1 b) (km x0 x2 b) s := by
  rw [val_main_v16_apply, val_main_v15_apply]
  have e : idx_main_v15 (idx_main_v16 (ix3 b s t)) = ix2 b s := funext fun a => Fin.ext (by match a with | ⟨0, _⟩ => rfl | ⟨1, _⟩ => rfl)
  rw [e, v14_at]

theorem v17_at (b : Fin 16) (s t : Fin 1024) :
    val_main_v17 (F := Ideal) x0 x1 x2 (ix3 b s t)
      = Ideal.div (expo (qm x0 x1 b) (km x0 x2 b) s t) (denom (qm x0 x1 b) (km x0 x2 b) s) := by
  rw [val_main_v17_apply, Ideal.hostDivf_def, v13_at, v16_at]

/-! ## The gate -/

/-- The bias broadcast along the first two axes reads, at `(b, s, t)`, its entry `t`. -/
theorem v20_at (b : Fin 16) (s t : Fin 1024) : val_main_v20 (F := Ideal) x5 (ix3 b s t) = x5 (ix1 t) := by
  rw [val_main_v20_apply, val_main_v19_apply]
  have e : idx_main_v19 (idx_main_v20 (ix3 b s t)) = ix1 t := funext fun a => Fin.ext (by match a with | ⟨0, _⟩ => rfl)
  rw [e]

/-- `1 / (1 + exp (-(x·Wm + bm)))` is the logistic function of `x·Wm + bm`, by definition. -/
theorem v27_at (b : Fin 16) (s t : Fin 1024) :
    val_main_v27 (F := Ideal) x0 x4 x5 (ix3 b s t) = gm x0 x4 x5 b s t := by
  rw [val_main_v27_apply, Ideal.hostDivf_def, val_main_v26_apply, val_main_cst_4_apply, val_main_v25_apply,
    Ideal.addf_def, val_main_v24_apply, val_main_cst_3_apply, val_main_v23_apply, Ideal.hostUnary_exp_def,
    val_main_v22_apply, Ideal.hostNegf_def, Ideal.negf_def, val_main_v21_apply, Ideal.addf_def, v18_at, v20_at,
    Ideal.ofBits_def, ofBits_one]
  rfl

/-! ## The gated weights and the context -/

theorem v28_at (b : Fin 16) (s t : Fin 1024) :
    val_main_v28 (F := Ideal) x0 x1 x2 x4 x5 (ix3 b s t)
      = weight (qm x0 x1 b) (km x0 x2 b) (gm x0 x4 x5 b) s t := by
  rw [val_main_v28_apply, Ideal.mulf_def, v17_at, v27_at]; rfl

/-- The last batched `dot_general`: at `(b, s, u)`, the gated weights of row `s` against column `u` of the values. -/
theorem v29_at (b : Fin 16) (s u : Fin 1024) :
    val_main_v29 (F := Ideal) x0 x1 x2 x3 x4 x5 (ix3 b s u)
      = attend (qm x0 x1 b) (km x0 x2 b) (vm x0 x3 b) (gm x0 x4 x5 b) s u := by
  rw [val_main_v29_apply]
  unfold attend
  refine Finset.sum_congr rfl fun t _ => ?_
  have el : lidx_main_v29 (ix3 b s u) t = ix3 b s t := funext fun a => Fin.ext (by match a with | ⟨0, _⟩ => rfl | ⟨1, _⟩ => rfl | ⟨2, _⟩ => rfl)
  have er : ridx_main_v29 (ix3 b s u) t = ix3 b t u := funext fun a => Fin.ext (by match a with | ⟨0, _⟩ => rfl | ⟨1, _⟩ => rfl | ⟨2, _⟩ => rfl)
  rw [el, er, v28_at, v2_at]

end

/-- The reference program computes the specification's gated attention of its six arguments. -/
theorem reference_eq (x0 : (⟨S16x1024x1024, .f32⟩ : BufTy).Contents (Elt Ideal))
    (x1 x2 x3 x4 : (⟨S1024x1024, .f32⟩ : BufTy).Contents (Elt Ideal))
    (x5 : (⟨S1024, .f32⟩ : BufTy).Contents (Elt Ideal)) :
    Cert.ReferenceIdeal.Read.val_main_v29 (F := Ideal) x0 x1 x2 x3 x4 x5
      = Cert.GatedAttention.result x0 x1 x2 x3 x4 x5 := by
  refine arr3_ext fun b s u => ?_
  rw [v29_at]
  rfl

end Cert.ReferenceIdeal.RefValue

end
-- ==== Proof.lean ====
/-
  Attention with a sigmoid gate on its weights, as a two-region Pallas kernel, against its plain reference.

  The kernel first projects x with four matrices in one region (q, k, v, and the gate logistic (x·Wm + bm)), then, in a
  second region and batch by batch, forms the scores q·kᵀ times 1/32, their softmax along each row, multiplies
  by the gate and by v. The reference does the same with whole-array operations and spells the scale as a division by
  √1024 and the gate as 1 / (1 + exp (-·)). Over the extended reals both are the ONE function
  `Cert.GatedAttention.result` of the six argument arrays, index by index:
  • a change of float format is the identity, and a matrix product into a zero accumulator, or on the host, is
    the plain sum of products, whatever the tiling;
  • dividing by √1024 = 32 is multiplying by 1/32 on every extended real, so no argument need be finite;
  • a row's maximum is the same fold of max from -∞ on both sides, and a row's sum the same sum.
  The kernel's side: each region's output arrays are read off the blocks its grid points write back, and the two
  regions are joined through the buffer contents at the region boundaries. The reference's side: its run, read one
  operation at a time. The rewrite ledger of the idealization is empty, so that claim is `True`.
-/
import proofs.«134380_j56659208569094_1_alg».proof.Defs
import proofs.«134380_j56659208569094_1_alg».proof.Proof.Gen.Kernel
import proofs.«134380_j56659208569094_1_alg».proof.Proof.Gen.Kernel.Skeleton
import proofs.«134380_j56659208569094_1_alg».proof.Proof.Gen.Kernel.Launch
import proofs.«134380_j56659208569094_1_alg».proof.Proof.Gen.Kernel.Points
import proofs.«134380_j56659208569094_1_alg».proof.Proof.Gen.Kernel.Frame
import proofs.«134380_j56659208569094_1_alg».proof.Proof.Gen.KernelIdeal
import proofs.«134380_j56659208569094_1_alg».proof.Proof.Gen.KernelIdeal.Skeleton
import proofs.«134380_j56659208569094_1_alg».proof.Proof.Gen.KernelIdeal.Launch
import proofs.«134380_j56659208569094_1_alg».proof.Proof.Gen.KernelIdeal.Points
import proofs.«134380_j56659208569094_1_alg».proof.Proof.Gen.KernelIdeal.Frame
import proofs.«134380_j56659208569094_1_alg».proof.Proof.Gen.ReferenceIdeal
import proofs.«134380_j56659208569094_1_alg».proof.Proof.Gen.ReferenceIdeal.Run
import proofs.«134380_j56659208569094_1_alg».proof.Proof.Gen.ReferenceIdeal.Read
import proofs.«134380_j56659208569094_1_alg».proof.Proof.Gen.Pre_finite_inputs
import proofs.«134380_j56659208569094_1_alg».proof.Proof.Spec
import proofs.«134380_j56659208569094_1_alg».proof.Proof.KernelRun
import proofs.«134380_j56659208569094_1_alg».proof.Proof.ProjValue
import proofs.«134380_j56659208569094_1_alg».proof.Proof.AttnBody
import proofs.«134380_j56659208569094_1_alg».proof.Proof.AttnValue
import proofs.«134380_j56659208569094_1_alg».proof.Proof.KernelValue
import proofs.«134380_j56659208569094_1_alg».proof.Proof.RefValue
import Idealize.ShloMosaic.Adequacy
import Idealize.ShloMosaic.Init

noncomputable section

namespace Cert.Proof

open Idealize.ShloMosaic Idealize.ShloMosaic.TcCoe Idealize.SL.Sem

/-- The kernel program's result buffer, at the last boundary, is `result` of the launch contents of the six arguments:
    the attention region over the projection region's four arrays over the host stretch. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W3 (F := Ideal) m ρ c (Proc.devRef .tc Cert.KernelIdeal.main_v7)
      = Cert.GatedAttention.result
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) :=
  Cert.KernelIdeal.Compose.kernel_value_of
    (fun V c => Cert.KernelIdeal.ProjValue.final_q V c) (fun V c => Cert.KernelIdeal.ProjValue.final_k V c)
    (fun V c => Cert.KernelIdeal.ProjValue.final_v V c) (fun V c => Cert.KernelIdeal.ProjValue.final_g V c)
    (fun V c => Cert.KernelIdeal.AttnValue.final_attn_of V Cert.KernelIdeal.AttnBody.body_at c) m ρ c

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with `result` of those arguments. -/
theorem algebraic : Cert.algebraic_KernelIdeal_ReferenceIdeal := by
  intro m ρ m' ρ' _ hagree
  refine ⟨fun c => Cert.GatedAttention.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_value m ρ c), (h c).2⟩)
      (Cert.KernelIdeal.Whole.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5⟩ := hagree c
    rw [Cert.ReferenceIdeal.Read.val_main_v29_eq, Cert.ReferenceIdeal.RefValue.reference_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
